-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S1600000 : Shape := ⟨1, ![1600000]⟩
abbrev S512x128 : Shape := ⟨2, ![512, 128]⟩
abbrev S128 : Shape := ⟨1, ![128]⟩
abbrev S512 : Shape := ⟨1, ![512]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S512 : S_.BroadcastsInDim S512 (![] : Fin 0 → Fin S512.rank)
  reducesTo_S512_S_d0 : S512.ReducesTo [0] S_

variable [Facts]

def fn_part1 {F : FTy → Type} [FloatOps F] (main_arg6 : FVec F S512 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S50000x512 .f32) (main_arg1 : IVec S1600000 32) (main_arg2 : IVec S1600000 32) (main_arg3 : FVec F S512x128 .f32) (main_arg4 : FVec F S128 .f32) (main_arg5 : FVec F S512x128 .f32) (main_arg6 : FVec F S512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg3
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S512x128 .f32 := Host.absf main_arg5
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg6 main_v13 main_v16
-- ==== Kernel.lean ====
abbrev S50000x512 : Shape := ⟨2, ![50000, 512]⟩
abbrev S1600000 : Shape := ⟨1, ![1600000]⟩
abbrev S512x128 : Shape := ⟨2, ![512, 128]⟩
abbrev S128 : Shape := ⟨1, ![128]⟩
abbrev S512 : Shape := ⟨1, ![512]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S50000x128 : Shape := ⟨2, ![50000, 128]⟩
abbrev S2000x512 : Shape := ⟨2, ![2000, 512]⟩
abbrev S2000x1 : Shape := ⟨2, ![2000, 1]⟩
abbrev S2000x128 : Shape := ⟨2, ![2000, 128]⟩
abbrev S1600000x128 : Shape := ⟨2, ![1600000, 128]⟩
abbrev S128x512 : Shape := ⟨2, ![128, 512]⟩
abbrev S1x128 : Shape := ⟨2, ![1, 128]⟩
abbrev S1x512 : Shape := ⟨2, ![1, 512]⟩

abbrev nBuf : Space → Nat
  | .hbm => 59
  | .vmem => 16
  | .smem => 0
  | _ => 0

abbrev bufTy : (tb : Table) → Fin (tcTables nBuf tb) → BufTy
  | .hbm, ⟨0, _⟩ => ⟨S50000x512, .f32⟩
  | .hbm, ⟨1, _⟩ => ⟨S1600000, .i32⟩
  | .hbm, ⟨2, _⟩ => ⟨S1600000, .i32⟩
  | .hbm, ⟨3, _⟩ => ⟨S512x128, .f32⟩
  | .hbm, ⟨4, _⟩ => ⟨S128, .f32⟩
  | .hbm, ⟨5, _⟩ => ⟨S512x128, .f32⟩
  | .hbm, ⟨6, _⟩ => ⟨S512, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S50000, .f32⟩
  | .hbm, ⟨11, _⟩ => ⟨S1600000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S1600000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .i1⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000, .f32⟩
  | .hbm, ⟨35, _⟩ => ⟨S_, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S50000x128, .f32⟩
  | .hbm, ⟨52, _⟩ => ⟨S1600000x1, .i32⟩
  | .hbm, ⟨53, _⟩ => ⟨S50000x128, .f32⟩
  | .hbm, ⟨54, _⟩ => ⟨S128x512, .f32⟩
  | .hbm, ⟨55, _⟩ => ⟨S50000x1, .f32⟩
  | .hbm, ⟨56, _⟩ => ⟨S1x128, .f32⟩
  | .hbm, ⟨57, _⟩ => ⟨S1x512, .f32⟩
  | .hbm, ⟨58, _⟩ => ⟨S50000x512, .f32⟩
  | .local _ .vmem, ⟨0, _⟩ => ⟨S2000x512, .f32⟩
  | .local _ .vmem, ⟨1, _⟩ => ⟨S2000x512, .f32⟩
  | .local _ .vmem, ⟨2, _⟩ => ⟨S2000x1, .f32⟩
  | .local _ .vmem, ⟨3, _⟩ => ⟨S2000x1, .f32⟩
  | .local _ .vmem, ⟨4, _⟩ => ⟨S512x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S128x512, .f32⟩
  | .local _ .vmem, ⟨13, _⟩ => ⟨S1x512, .f32⟩
  | .local _ .vmem, ⟨14, _⟩ => ⟨S2000x512, .f32⟩
  | .local _ .vmem, ⟨15, _⟩ => ⟨S2000x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c : Ref sig .tc := ⟨.hbm, 41, rfl⟩
abbrev main_v21 : Ref sig .tc := ⟨.hbm, 42, rfl⟩
abbrev main_v22 : Ref sig .tc := ⟨.hbm, 43, rfl⟩
abbrev main_c_8 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_9 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  shapeCasts_S50000_S50000x1 : S50000.ShapeCasts S50000x1
  inb_S2000x512_S2000x512_0_0 : ∀ a, (![0, 0] : Fin 2 → Nat) a + S2000x512.size a ≤ S2000x512.size a
  h_S2000x512 : 0 < S2000x512.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x512 : S2000x1.Broadcasts S2000x512
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  transposes_S512x128_S128x512_1_0 : S512x128.Transposes [1, 0] S128x512
  shapeCasts_S128_S1x128 : S128.ShapeCasts S1x128
  shapeCasts_S512_S1x512 : S512.ShapeCasts S1x512
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S2000x1_S2000x128 : S2000x1.Broadcasts S2000x128
  broadcasts_S1x128_S2000x128 : S1x128.Broadcasts S2000x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  scatter_S50000_S1600000x1_S1600000_n_0_0_1_wf : ScatterDims.WF S50000 S1600000x1 S1600000 [] [0] [0] 1
  dot_S2000x512_S512x128_S2000x128_1_0_0_1_n_n_wf : DotDims.WF S2000x512 S512x128 S2000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S2000x128_S128x512_S2000x512_1_0_0_1_n_n_wf : DotDims.WF S2000x128 S128x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x512.size a ≤ S128x512.size a
  hwx1_3 : ∀ i : grid1.Coords, EltTy.bits .f32 = 32 ∨ (Rect.block (s := S128x512) S128x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x512.size a ≤ S50000x512.size a
  hwx1_5 : ∀ i : grid1.Coords, EltTy.bits .f32 = 32 ∨ (Rect.block (s := S50000x512) S2000x512.size (cc1_transform_5 i) (hinb1_5 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S128x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S2000x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x512 : Shape := ⟨2, ![50000, 512]⟩
abbrev S1600000 : Shape := ⟨1, ![1600000]⟩
abbrev S512x128 : Shape := ⟨2, ![512, 128]⟩
abbrev S128 : Shape := ⟨1, ![128]⟩
abbrev S512 : Shape := ⟨1, ![512]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S50000x128 : Shape := ⟨2, ![50000, 128]⟩
abbrev S1600000x128 : Shape := ⟨2, ![1600000, 128]⟩
abbrev S1x128 : Shape := ⟨2, ![1, 128]⟩
abbrev S128x512 : Shape := ⟨2, ![128, 512]⟩
abbrev S1x512 : Shape := ⟨2, ![1, 512]⟩

abbrev nBuf : Space → Nat
  | .hbm => 70
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S1600000, .i32⟩
  | .hbm, ⟨2, _⟩ => ⟨S1600000, .i32⟩
  | .hbm, ⟨3, _⟩ => ⟨S512x128, .f32⟩
  | .hbm, ⟨4, _⟩ => ⟨S128, .f32⟩
  | .hbm, ⟨5, _⟩ => ⟨S512x128, .f32⟩
  | .hbm, ⟨6, _⟩ => ⟨S512, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S50000, .f32⟩
  | .hbm, ⟨11, _⟩ => ⟨S1600000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S1600000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .i1⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000, .f32⟩
  | .hbm, ⟨35, _⟩ => ⟨S_, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x512, .f32⟩
  | .hbm, ⟨41, _⟩ => ⟨S50000x512, .f32⟩
  | .hbm, ⟨42, _⟩ => ⟨S50000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S50000x128, .f32⟩
  | .hbm, ⟨54, _⟩ => ⟨S1600000x1, .i32⟩
  | .hbm, ⟨55, _⟩ => ⟨S50000x128, .f32⟩
  | .hbm, ⟨56, _⟩ => ⟨S50000x1, .f32⟩
  | .hbm, ⟨57, _⟩ => ⟨S50000x128, .f32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S_, .f32⟩
  | .hbm, ⟨63, _⟩ => ⟨S50000x128, .f32⟩
  | .hbm, ⟨64, _⟩ => ⟨S50000x128, .f32⟩
  | .hbm, ⟨65, _⟩ => ⟨S128x512, .f32⟩
  | .hbm, ⟨66, _⟩ => ⟨S50000x512, .f32⟩
  | .hbm, ⟨67, _⟩ => ⟨S1x512, .f32⟩
  | .hbm, ⟨68, _⟩ => ⟨S50000x512, .f32⟩
  | .hbm, ⟨69, _⟩ => ⟨S50000x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c : Ref sig .tc := ⟨.hbm, 43, rfl⟩
abbrev main_v23 : Ref sig .tc := ⟨.hbm, 44, rfl⟩
abbrev main_v24 : Ref sig .tc := ⟨.hbm, 45, rfl⟩
abbrev main_c_8 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_9 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_call2_cst : Ref sig .tc := ⟨.hbm, 62, rfl⟩
abbrev main_call2_v0 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S512x128_S128x512_1_0 : S512x128.Transposes [1, 0] S128x512
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  scatter_S50000_S1600000x1_S1600000_n_0_0_1_wf : ScatterDims.WF S50000 S1600000x1 S1600000 [] [0] [0] 1
  dot_S50000x512_S512x128_S50000x128_1_0_0_1_n_n_wf : DotDims.WF S50000x512 S512x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x512_S50000x512_1_0_0_1_n_n_wf : DotDims.WF S50000x128 S128x512 S50000x512 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x512_S50000x512_1_0_0_1_n_n : DotDims S50000x128 S128x512 S50000x512 where
  lhsContracting := [1]
  rhsContracting := [0]
  lhsNonContracting := [0]
  rhsNonContracting := [1]
  lhsBatch := []
  rhsBatch := []
  wf := dot_S50000x128_S128x512_S50000x512_1_0_0_1_n_n_wf

class Facts : Prop extends Facts₀ where

variable [Facts]
-- ==== Proof.KernelRun.lean ====
/-
  The idealized kernel program's run with its RESULT named: every weakly fair execution of @main terminates, nothing
  faulting, with the result array at the contents the last region leaves in it (`Gen.W8` at the result's buffer: the fold
  of the host stretches and of the two regions' write-backs from the launch memory) and the seven arguments as launched.
  The frame claim is this statement with the result forgotten; here the last thread state — every unscoped buffer at the
  last boundary's contents — is read at the result's buffer too.
-/
import proofs.«136862_j82446192214207_1_alg».proof.Proof.Gen.KernelIdeal.Frame

set_option maxRecDepth 16384

noncomputable section

namespace Cert.KernelIdeal.Bridge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_result : θ_run defs (onTc (τ := τ) (main (F := F))) ⟨m, fun _ => 0, ρ⟩ (fun r => ∀ c : Dev nD,
      r.2.mem ((c.tc : Thread nD τ).loc main_v35) = W8 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v35 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.Bridge

end
-- ==== Proof.BodyAtIndex.lean ====
/-
  The two kernel bodies read at one index, at the ideal instance (floats are extended reals, format changes the identity).

  Body 0 (the graph-convolution transform), on a block of 2000 rows: row `p`, column `q` of what it stores is
      ∑ k < 512, (x[p,k] · n[p,0]) · w[k,q]
  — the row's 512 features each scaled by the row's normalisation factor (a [2000,1] column broadcast along the lanes),
  contracted with the weight's column `q`; the matrix product into a zero accumulator is that plain sum.

  Body 1 (bias, rectifier, the fully connected layer), on a block of 2000 rows: row `p`, column `q` is
      (∑ k < 128, max (a[p,k] · n[p,0] + b[0,k]) 0 · w[k,q]) + b'[0,q].
-/
import proofs.«136862_j82446192214207_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Bridge

open Idealize.ShloMosaic Idealize.ShloMosaic.ValueIdx Cert.KernelIdeal Cert.KernelIdeal.Gen

/-! ## Layout pieces read at an index -/

/-- A [2000,1] column broadcast along 512 lanes, read at row `p`, lane `k`: the column's entry of row `p`. -/
theorem col512_apply (v : FVec Ideal S2000x1 .f32) (h' : S2000x1.Broadcasts S2000x512) (p : Fin 2000) (k : Fin 512) :
    broadcastTo S2000x512 v h' (ix2 p k) = v (ix2 p 0) := by
  refine broadcastTo_apply v _ (ix2 p k) (ix2 p (0 : Fin 1)) fun a => ?_
  match a with
  | ⟨0, _⟩ => rfl
  | ⟨1, _⟩ => rfl

/-- The same column along 128 lanes. -/
theorem col128_apply (v : FVec Ideal S2000x1 .f32) (h' : S2000x1.Broadcasts S2000x128) (p : Fin 2000) (k : Fin 128) :
    broadcastTo S2000x128 v h' (ix2 p k) = v (ix2 p 0) := by
  refine broadcastTo_apply v _ (ix2 p k) (ix2 p (0 : Fin 1)) fun a => ?_
  match a with
  | ⟨0, _⟩ => rfl
  | ⟨1, _⟩ => rfl

/-- A [1,128] row broadcast down 2000 rows, read at row `p`, lane `k`: the row's entry of lane `k`. -/
theorem row128_apply (v : FVec Ideal S1x128 .f32) (h' : S1x128.Broadcasts S2000x128) (p : Fin 2000) (k : Fin 128) :
    broadcastTo S2000x128 v h' (ix2 p k) = v (ix2 0 k) := by
  refine broadcastTo_apply v _ (ix2 p k) (ix2 (0 : Fin 1) k) fun a => ?_
  match a with
  | ⟨0, _⟩ => rfl
  | ⟨1, _⟩ => rfl

/-- A [1,512] row broadcast down 2000 rows. -/
theorem row512_apply (v : FVec Ideal S1x512 .f32) (h' : S1x512.Broadcasts S2000x512) (p : Fin 2000) (k : Fin 512) :
    broadcastTo S2000x512 v h' (ix2 p k) = v (ix2 0 k) := by
  refine broadcastTo_apply v _ (ix2 p k) (ix2 (0 : Fin 1) k) fun a => ?_
  match a with
  | ⟨0, _⟩ => rfl
  | ⟨1, _⟩ => rfl

/-! ## The matrix products read at an index -/

/-- Where the gcn product reads its operands: output index `i`, contraction coordinate `q`. -/
theorem gcn_lhs0 (i : S2000x128.Idx) (q : dot_S2000x512_S512x128_S2000x128_1_0_0_1_n_n.contr.Idx) : (dot_S2000x512_S512x128_S2000x128_1_0_0_1_n_n.lhsIdx i q 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
theorem gcn_lhs1 (i : S2000x128.Idx) (q : dot_S2000x512_S512x128_S2000x128_1_0_0_1_n_n.contr.Idx) : (dot_S2000x512_S512x128_S2000x128_1_0_0_1_n_n.lhsIdx i q 1).val = (q ⟨0, by decide⟩).val :=
  dot_S2000x512_S512x128_S2000x128_1_0_0_1_n_n.lhsIdx_val_of_single rfl i q
theorem gcn_rhs0 (i : S2000x128.Idx) (q : dot_S2000x512_S512x128_S2000x128_1_0_0_1_n_n.contr.Idx) : (dot_S2000x512_S512x128_S2000x128_1_0_0_1_n_n.rhsIdx i q 0).val = (q ⟨0, by decide⟩).val :=
  dot_S2000x512_S512x128_S2000x128_1_0_0_1_n_n.rhsIdx_val_of_single rfl i q
theorem gcn_rhs1 (i : S2000x128.Idx) (q : dot_S2000x512_S512x128_S2000x128_1_0_0_1_n_n.contr.Idx) : (dot_S2000x512_S512x128_S2000x128_1_0_0_1_n_n.rhsIdx i q 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- The gcn product into a zero accumulator, at row `p`, column `q`: the plain sum over the 512 contraction
    coordinates of left entry (p,k) times right entry (k,q). -/
theorem gcn_matmul_apply {φ₁ φ₂ : FTy} (l : FVec Ideal S2000x512 φ₁) (r : FVec Ideal S512x128 φ₂) (p : Fin 2000) (q : Fin 128) :
    matmul dot_S2000x512_S512x128_S2000x128_1_0_0_1_n_n none l r (constant S2000x128 .f32 0x00000000#32) (ix2 p q) = ∑ k : Fin 512, l (ix2 p k) * r (ix2 k q) := by
  simp only [matmul]
  rw [Ideal.matmul_constant_zero_apply, ← Equiv.sum_comp (contrEquiv1 dot_S2000x512_S512x128_S2000x128_1_0_0_1_n_n 512 rfl rfl).symm]
  refine Finset.sum_congr rfl fun k _ => ?_
  have hk := contrEquiv1_symm_val dot_S2000x512_S512x128_S2000x128_1_0_0_1_n_n 512 rfl rfl k
  have el : dot_S2000x512_S512x128_S2000x128_1_0_0_1_n_n.lhsIdx (ix2 p q) ((contrEquiv1 dot_S2000x512_S512x128_S2000x128_1_0_0_1_n_n 512 rfl rfl).symm k) = ix2 p k := funext fun a => Fin.ext (by
    match a with
    | ⟨0, _⟩ => exact gcn_lhs0 _ _
    | ⟨1, _⟩ => exact (gcn_lhs1 _ _).trans hk)
  have er : dot_S2000x512_S512x128_S2000x128_1_0_0_1_n_n.rhsIdx (ix2 p q) ((contrEquiv1 dot_S2000x512_S512x128_S2000x128_1_0_0_1_n_n 512 rfl rfl).symm k) = ix2 k q := funext fun a => Fin.ext (by
    match a with
    | ⟨0, _⟩ => exact (gcn_rhs0 _ _).trans hk
    | ⟨1, _⟩ => exact gcn_rhs1 _ _)
  rw [el, er]

/-- Where the fc product reads its operands: output index `i`, contraction coordinate `q`. -/
theorem fc_lhs0 (i : S2000x512.Idx) (q : dot_S2000x128_S128x512_S2000x512_1_0_0_1_n_n.contr.Idx) : (dot_S2000x128_S128x512_S2000x512_1_0_0_1_n_n.lhsIdx i q 0).val = (i 0).val := by
  unfold DotDims.lhsIdx
  rw [dif_neg (show ¬(0 : Fin S2000x128.rank) ∈ dot_S2000x128_S128x512_S2000x512_1_0_0_1_n_n.lhsBatch by decide), dif_pos (show (0 : Fin S2000x128.rank) ∈ dot_S2000x128_S128x512_S2000x512_1_0_0_1_n_n.lhsNonContracting by decide)]
  rfl
theorem fc_lhs1 (i : S2000x512.Idx) (q : dot_S2000x128_S128x512_S2000x512_1_0_0_1_n_n.contr.Idx) : (dot_S2000x128_S128x512_S2000x512_1_0_0_1_n_n.lhsIdx i q 1).val = (q ⟨0, by decide⟩).val :=
  dot_S2000x128_S128x512_S2000x512_1_0_0_1_n_n.lhsIdx_val_of_single rfl i q
theorem fc_rhs0 (i : S2000x512.Idx) (q : dot_S2000x128_S128x512_S2000x512_1_0_0_1_n_n.contr.Idx) : (dot_S2000x128_S128x512_S2000x512_1_0_0_1_n_n.rhsIdx i q 0).val = (q ⟨0, by decide⟩).val :=
  dot_S2000x128_S128x512_S2000x512_1_0_0_1_n_n.rhsIdx_val_of_single rfl i q
theorem fc_rhs1 (i : S2000x512.Idx) (q : dot_S2000x128_S128x512_S2000x512_1_0_0_1_n_n.contr.Idx) : (dot_S2000x128_S128x512_S2000x512_1_0_0_1_n_n.rhsIdx i q 1).val = (i 1).val := by
  unfold DotDims.rhsIdx
  rw [dif_neg (show ¬(1 : Fin S128x512.rank) ∈ dot_S2000x128_S128x512_S2000x512_1_0_0_1_n_n.rhsBatch by decide), dif_pos (show (1 : Fin S128x512.rank) ∈ dot_S2000x128_S128x512_S2000x512_1_0_0_1_n_n.rhsNonContracting by decide)]
  rfl

/-- The fc product into a zero accumulator, at row `p`, column `q`: the plain sum over the 128 contraction
    coordinates of left entry (p,k) times right entry (k,q). -/
theorem fc_matmul_apply {φ₁ φ₂ : FTy} (l : FVec Ideal S2000x128 φ₁) (r : FVec Ideal S128x512 φ₂) (p : Fin 2000) (q : Fin 512) :
    matmul dot_S2000x128_S128x512_S2000x512_1_0_0_1_n_n none l r (constant S2000x512 .f32 0x00000000#32) (ix2 p q) = ∑ k : Fin 128, l (ix2 p k) * r (ix2 k q) := by
  simp only [matmul]
  rw [Ideal.matmul_constant_zero_apply, ← Equiv.sum_comp (contrEquiv1 dot_S2000x128_S128x512_S2000x512_1_0_0_1_n_n 128 rfl rfl).symm]
  refine Finset.sum_congr rfl fun k _ => ?_
  have hk := contrEquiv1_symm_val dot_S2000x128_S128x512_S2000x512_1_0_0_1_n_n 128 rfl rfl k
  have el : dot_S2000x128_S128x512_S2000x512_1_0_0_1_n_n.lhsIdx (ix2 p q) ((contrEquiv1 dot_S2000x128_S128x512_S2000x512_1_0_0_1_n_n 128 rfl rfl).symm k) = ix2 p k := funext fun a => Fin.ext (by
    match a with
    | ⟨0, _⟩ => exact fc_lhs0 _ _
    | ⟨1, _⟩ => exact (fc_lhs1 _ _).trans hk)
  have er : dot_S2000x128_S128x512_S2000x512_1_0_0_1_n_n.rhsIdx (ix2 p q) ((contrEquiv1 dot_S2000x128_S128x512_S2000x512_1_0_0_1_n_n 128 rfl rfl).symm k) = ix2 k q := funext fun a => Fin.ext (by
    match a with
    | ⟨0, _⟩ => exact (fc_rhs0 _ _).trans hk
    | ⟨1, _⟩ => exact fc_rhs1 _ _)
  rw [el, er]

/-! ## The two bodies -/

/-- Body 0 at row `p`, column `q`. -/
theorem gcn_body_apply (x0 : Vec Ideal S2000x512 .f32) (x1 : Vec Ideal S2000x1 .f32) (x2 : Vec Ideal S512x128 .f32)
    (p : Fin 2000) (q : Fin 128) :
    k0_pay1 x0 x1 x2 (ix2 p q) = ∑ k : Fin 512, (x0 (ix2 p k) * x1 (ix2 p 0)) * x2 (ix2 k q) := by
  unfold k0_pay1
  refine (gcn_matmul_apply _ _ p q).trans ?_
  refine Finset.sum_congr rfl fun k _ => ?_
  simp only [truncf_apply, mulf_apply, shapeCast_self, col512_apply]

/-- Body 1 at row `p`, column `q`. -/
theorem fc_body_apply (x0 : Vec Ideal S2000x128 .f32) (x1 : Vec Ideal S2000x1 .f32) (x2 : Vec Ideal S1x128 .f32)
    (x3 : Vec Ideal S128x512 .f32) (x4 : Vec Ideal S1x512 .f32) (p : Fin 2000) (q : Fin 512) :
    k1_pay1 x0 x1 x2 x3 x4 (ix2 p q)
      = (∑ k : Fin 128, max (x0 (ix2 p k) * x1 (ix2 p 0) + x2 (ix2 0 k)) (Ideal.ofBits .f32 0x00000000#32) * x3 (ix2 k q)) + x4 (ix2 0 q) := by
  unfold k1_pay1
  simp only [shapeCast_self]
  rw [addf_apply, row512_apply]
  refine congrArg (· + x4 (ix2 0 q)) ?_
  refine (fc_matmul_apply _ _ p q).trans ?_
  refine Finset.sum_congr rfl fun k _ => ?_
  simp only [truncf_apply, maximumf_apply, addf_apply, mulf_apply, shapeCast_self, col128_apply, row128_apply, broadcast_apply]
  rfl

end Cert.KernelIdeal.Bridge

end
-- ==== Proof.LayerSpec.lean ====
/-
  The two dense layers as whole-array functions at the ideal instance, and the fact that each kernel body, run on the
  blocks of rows `2000·b … 2000·b + 1999` of its operands, computes rows `2000·b …` of that function.

  `gcnOut X N W` (a [50000,128] array):  row r, column s  ↦  ∑ k < 512, (X[r,k] · N[r,0]) · W[k,s].
  `fcOut A N B W B'` (a [50000,512] array):  row r, column s  ↦  (∑ k < 128, max (A[r,k] · N[r,0] + B[0,k]) 0 · W[k,s]) + B'[0,s].
  A row of either depends only on the same row of the row-indexed operands and on the whole of the small ones, which is
  why a tiling by rows computes it block by block.
-/
import proofs.«136862_j82446192214207_1_alg».proof.Proof.BodyAtIndex

noncomputable section

namespace Cert.KernelIdeal.Bridge

open Idealize.ShloMosaic Idealize.ShloMosaic.ValueIdx Cert.KernelIdeal Cert.KernelIdeal.Gen

/-- The normalised features times the weight: the first dense layer over all 50000 rows. -/
def gcnOut (X : (⟨S50000x512, .f32⟩ : BufTy).Contents (Elt Ideal)) (N : (⟨S50000x1, .f32⟩ : BufTy).Contents (Elt Ideal))
    (W : (⟨S512x128, .f32⟩ : BufTy).Contents (Elt Ideal)) : (⟨S50000x128, .f32⟩ : BufTy).Contents (Elt Ideal) :=
  fun i => ∑ k : Fin 512, (X (ix2 (⟨(i 0).val, (i 0).isLt⟩ : Fin 50000) k) * N (ix2 (⟨(i 0).val, (i 0).isLt⟩ : Fin 50000) (0 : Fin 1)))
    * W (ix2 k (⟨(i 1).val, (i 1).isLt⟩ : Fin 128))

/-- Read at an index whose coordinates are known as literal-range numbers. -/
theorem gcnOut_apply (X : (⟨S50000x512, .f32⟩ : BufTy).Contents (Elt Ideal)) (N : (⟨S50000x1, .f32⟩ : BufTy).Contents (Elt Ideal))
    (W : (⟨S512x128, .f32⟩ : BufTy).Contents (Elt Ideal)) (i : S50000x128.Idx) (r : Fin 50000) (s : Fin 128)
    (h0 : (i 0).val = r.val) (h1 : (i 1).val = s.val) :
    gcnOut X N W i = ∑ k : Fin 512, (X (ix2 r k) * N (ix2 r (0 : Fin 1))) * W (ix2 k s) := by
  obtain rfl : (⟨(i 0).val, (i 0).isLt⟩ : Fin 50000) = r := Fin.ext h0
  obtain rfl : (⟨(i 1).val, (i 1).isLt⟩ : Fin 128) = s := Fin.ext h1
  rfl

/-- Scaling, bias, rectifier, the second dense layer and its bias, over all 50000 rows. -/
def fcOut (A : (⟨S50000x128, .f32⟩ : BufTy).Contents (Elt Ideal)) (N : (⟨S50000x1, .f32⟩ : BufTy).Contents (Elt Ideal))
    (B : (⟨S1x128, .f32⟩ : BufTy).Contents (Elt Ideal)) (W : (⟨S128x512, .f32⟩ : BufTy).Contents (Elt Ideal))
    (B' : (⟨S1x512, .f32⟩ : BufTy).Contents (Elt Ideal)) : (⟨S50000x512, .f32⟩ : BufTy).Contents (Elt Ideal) :=
  fun i => (∑ k : Fin 128, max (A (ix2 (⟨(i 0).val, (i 0).isLt⟩ : Fin 50000) k) * N (ix2 (⟨(i 0).val, (i 0).isLt⟩ : Fin 50000) (0 : Fin 1))
        + B (ix2 (0 : Fin 1) k)) (Ideal.ofBits .f32 0x00000000#32) * W (ix2 k (⟨(i 1).val, (i 1).isLt⟩ : Fin 512)))
    + B' (ix2 (0 : Fin 1) (⟨(i 1).val, (i 1).isLt⟩ : Fin 512))

theorem fcOut_apply (A : (⟨S50000x128, .f32⟩ : BufTy).Contents (Elt Ideal)) (N : (⟨S50000x1, .f32⟩ : BufTy).Contents (Elt Ideal))
    (B : (⟨S1x128, .f32⟩ : BufTy).Contents (Elt Ideal)) (W : (⟨S128x512, .f32⟩ : BufTy).Contents (Elt Ideal))
    (B' : (⟨S1x512, .f32⟩ : BufTy).Contents (Elt Ideal)) (i : S50000x512.Idx) (r : Fin 50000) (s : Fin 512)
    (h0 : (i 0).val = r.val) (h1 : (i 1).val = s.val) :
    fcOut A N B W B' i = (∑ k : Fin 128, max (A (ix2 r k) * N (ix2 r (0 : Fin 1)) + B (ix2 (0 : Fin 1) k)) (Ideal.ofBits .f32 0x00000000#32) * W (ix2 k s))
      + B' (ix2 (0 : Fin 1) s) := by
  obtain rfl : (⟨(i 0).val, (i 0).isLt⟩ : Fin 50000) = r := Fin.ext h0
  obtain rfl : (⟨(i 1).val, (i 1).isLt⟩ : Fin 512) = s := Fin.ext h1
  rfl

/-- Body 0 on the blocks of rows `2000·b + p` computes those rows of `gcnOut`. -/
theorem gcn_block (x0 : Vec Ideal S2000x512 .f32) (x1 : Vec Ideal S2000x1 .f32) (x2 : Vec Ideal S512x128 .f32)
    (X : (⟨S50000x512, .f32⟩ : BufTy).Contents (Elt Ideal)) (N : (⟨S50000x1, .f32⟩ : BufTy).Contents (Elt Ideal))
    (W : (⟨S512x128, .f32⟩ : BufTy).Contents (Elt Ideal)) (b : Nat) (hb : b < 25)
    (h0 : ∀ (p : Fin 2000) (k : Fin 512), x0 (ix2 p k) = X (ix2 (⟨b * 2000 + p.val, by omega⟩ : Fin 50000) k))
    (h1 : ∀ p : Fin 2000, x1 (ix2 p (0 : Fin 1)) = N (ix2 (⟨b * 2000 + p.val, by omega⟩ : Fin 50000) (0 : Fin 1)))
    (h2 : ∀ (k : Fin 512) (q : Fin 128), x2 (ix2 k q) = W (ix2 k q))
    (p : Fin 2000) (q : Fin 128) (i : S50000x128.Idx) (hi0 : (i 0).val = b * 2000 + p.val) (hi1 : (i 1).val = q.val) :
    k0_pay1 x0 x1 x2 (ix2 p q) = gcnOut X N W i := by
  rw [gcn_body_apply, gcnOut_apply X N W i ⟨b * 2000 + p.val, by omega⟩ q hi0 hi1]
  exact Finset.sum_congr rfl fun k _ => by rw [h0, h1, h2]

/-- Body 1 on the blocks of rows `2000·b + p` computes those rows of `fcOut`. -/
theorem fc_block (x0 : Vec Ideal S2000x128 .f32) (x1 : Vec Ideal S2000x1 .f32) (x2 : Vec Ideal S1x128 .f32)
    (x3 : Vec Ideal S128x512 .f32) (x4 : Vec Ideal S1x512 .f32)
    (A : (⟨S50000x128, .f32⟩ : BufTy).Contents (Elt Ideal)) (N : (⟨S50000x1, .f32⟩ : BufTy).Contents (Elt Ideal))
    (B : (⟨S1x128, .f32⟩ : BufTy).Contents (Elt Ideal)) (W : (⟨S128x512, .f32⟩ : BufTy).Contents (Elt Ideal))
    (B' : (⟨S1x512, .f32⟩ : BufTy).Contents (Elt Ideal)) (b : Nat) (hb : b < 25)
    (h0 : ∀ (p : Fin 2000) (k : Fin 128), x0 (ix2 p k) = A (ix2 (⟨b * 2000 + p.val, by omega⟩ : Fin 50000) k))
    (h1 : ∀ p : Fin 2000, x1 (ix2 p (0 : Fin 1)) = N (ix2 (⟨b * 2000 + p.val, by omega⟩ : Fin 50000) (0 : Fin 1)))
    (h2 : ∀ k : Fin 128, x2 (ix2 (0 : Fin 1) k) = B (ix2 (0 : Fin 1) k))
    (h3 : ∀ (k : Fin 128) (q : Fin 512), x3 (ix2 k q) = W (ix2 k q))
    (h4 : ∀ q : Fin 512, x4 (ix2 (0 : Fin 1) q) = B' (ix2 (0 : Fin 1) q))
    (p : Fin 2000) (q : Fin 512) (i : S50000x512.Idx) (hi0 : (i 0).val = b * 2000 + p.val) (hi1 : (i 1).val = q.val) :
    k1_pay1 x0 x1 x2 x3 x4 (ix2 p q) = fcOut A N B W B' i := by
  rw [fc_body_apply, fcOut_apply A N B W B' i ⟨b * 2000 + p.val, by omega⟩ q hi0 hi1, h4]
  exact congrArg (· + B' (ix2 (0 : Fin 1) q)) (Finset.sum_congr rfl fun k _ => by rw [h0, h1, h2, h3])

end Cert.KernelIdeal.Bridge

end
-- ==== Proof.GcnRegion.lean ====
/-
  Region 0 (the graph-convolution transform, 25 grid points, one block of 2000 rows per point) read as a value, at ANY
  contents `V` of the buffers when the region is entered: after the region its output array holds
  `gcnOut` of the three input arrays as the region found them.

  Point `t` fetches rows `2000·t … 2000·t + 1999` of the features and of the normalisation column, the whole weight, and
  writes back rows `2000·t …` of the output; the 25 row blocks tile the 50000 rows.
-/
import proofs.«136862_j82446192214207_1_alg».proof.Proof.Gen.KernelIdeal.Frame
import proofs.«136862_j82446192214207_1_alg».proof.Proof.LayerSpec
import Idealize.ShloMosaic.Lib.Pipeline.Value

set_option maxRecDepth 16384

noncomputable section

namespace Cert.KernelIdeal.Bridge

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- The printed index maps of region 0, decided over its 25 points: the row-blocked windows are at block `t`, the
    weight's window at its one block. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 25 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 25)

theorem lt25_0 (t : Fin cfg0.N) : t.val < 25 := (idx0 t).2.2.2.2.2.2.2.2

/-- The features' block at point `t` is rows `2000·t + p` of the array. -/
theorem blk0_0 (c : Dev nD) (t : Fin cfg0.N) (p : Fin 2000) (k : Fin 512) :
    (iblk0 V c 0 t : Vec Ideal S2000x512 .f32) (ix2 p k)
      = (V c main_arg0 : S50000x512.Idx → Elt Ideal .f32) (ix2 (⟨t.val * 2000 + p.val, by have := lt25_0 t; omega⟩ : Fin 50000) k) := by
  obtain ⟨e0, e1, -⟩ := idx0 t
  unfold iblk0
  rw [View.read_apply]
  show V c main_arg0 _ = V c main_arg0 _
  refine congrArg _ (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 512 + 1 * k.val = k.val; rw [e1]; omega

/-- The normalisation column's block at point `t` is rows `2000·t + p` of the column. -/
theorem blk0_1 (c : Dev nD) (t : Fin cfg0.N) (p : Fin 2000) :
    (iblk0 V c 1 t : Vec Ideal S2000x1 .f32) (ix2 p (0 : Fin 1))
      = (V c main_v19 : S50000x1.Idx → Elt Ideal .f32) (ix2 (⟨t.val * 2000 + p.val, by have := lt25_0 t; omega⟩ : Fin 50000) (0 : Fin 1)) := by
  obtain ⟨-, -, e0, e1, -⟩ := idx0 t
  unfold iblk0
  rw [View.read_apply]
  show V c main_v19 _ = V c main_v19 _
  refine congrArg _ (funext fun a => Fin.ext ?_)
  match a with
  | ⟨0, _⟩ => show win0_1.index t (0 : Fin 2) * 2000 + 1 * p.val = t.val * 2000 + p.val; rw [e0]; omega
  | ⟨1, _⟩ => show win0_1.index t (1 : Fin 2) * 1 + 1 * 0 = 0; rw [e1]

/-- The weight's block is the weight. -/
theorem blk0_2 (c : Dev nD) (t : Fin cfg0.N) (k : Fin 512) (q : Fin 128) :
    (iblk0 V c 2 t : Vec Ideal S512x128 .f32) (ix2 k q) = (V c main_arg3 : S512x128.Idx → Elt Ideal .f32) (ix2 k q) := by
  obtain ⟨-, -, -, -, e0, e1, -⟩ := idx0 t
  unfold iblk0
  rw [View.read_apply]
  show V c main_arg3 _ = V c main_arg3 _
  refine congrArg _ (funext fun a => Fin.ext ?_)
  match a with
  | ⟨0, _⟩ => show win0_2.index t (0 : Fin 2) * 512 + 1 * k.val = k.val; rw [e0]; omega
  | ⟨1, _⟩ => show win0_2.index t (1 : Fin 2) * 128 + 1 * q.val = q.val; rw [e1]; omega

/-- What point `t` leaves in the output's staging buffer, at row `p`, column `q`: row `2000·t + p` of `gcnOut`. -/
theorem gcn_point (c : Dev nD) (t : Fin cfg0.N) (p : Fin 2000) (q : Fin 128) :
    k0_pay1 (iblk0 V c 0 t) (iblk0 V c 1 t) (iblk0 V c 2 t) (ix2 p q)
      = gcnOut (V c main_arg0) (V c main_v19) (V c main_arg3) (((cfg0.win 3).blk t).view.emb (ix2 p q)) := by
  obtain ⟨-, -, -, -, -, -, e0, e1, -⟩ := idx0 t
  refine gcn_block (iblk0 V c 0 t) (iblk0 V c 1 t) (iblk0 V c 2 t) (V c main_arg0) (V c main_v19) (V c main_arg3) t.val (lt25_0 t)
    (fun p k => blk0_0 V c t p k) (fun p => blk0_1 V c t p) (fun k q => blk0_2 V c t k q) p q _ ?_ ?_
  · show win0_3.index t (0 : Fin 2) * 2000 + 1 * p.val = t.val * 2000 + p.val; rw [e0]; omega
  · show win0_3.index t (1 : Fin 2) * 128 + 1 * q.val = q.val; rw [e1]; omega

/-- WHAT POINT `t` WRITES BACK is block `t` of `gcnOut` of the arrays as the region finds them. -/
theorem gcn_flushed (c : Dev nD) (t : Fin cfg0.N) :
    (dat0 V c).flushed 3 t = ((cfg0.win 3).blk t).view.read (Elt Ideal) (gcnOut (V c main_arg0) (V c main_v19) (V c main_arg3)) := by
  show (cfg0.win 3).cut (grid0.coords t) ((dat0 V c).after 3 t) = _
  rw [after0_3]
  unfold out0_3
  rw [View.canon_unit_zero zero_off]
  simp only [View.ld_unit_zero (S := S2000x512) zero_off, View.ld_unit_zero (S := S2000x1) zero_off, View.ld_unit_zero (S := S512x128) zero_off]
  funext j
  have e : (j : S2000x128.Idx) = ix2 (j 0) (j 1) := eq_ix2 j
  calc k0_pay1 (iblk0 V c 0 t) (iblk0 V c 1 t) (iblk0 V c 2 t) j
      = k0_pay1 (iblk0 V c 0 t) (iblk0 V c 1 t) (iblk0 V c 2 t) (ix2 (j 0) (j 1)) := congrArg _ e
    _ = gcnOut (V c main_arg0) (V c main_v19) (V c main_arg3) (((cfg0.win 3).blk t).view.emb (ix2 (j 0) (j 1))) := gcn_point V c t (j 0) (j 1)
    _ = gcnOut (V c main_arg0) (V c main_v19) (V c main_arg3) (((cfg0.win 3).blk t).view.emb j) :=
        (congrArg (fun y => gcnOut (V c main_arg0) (V c main_v19) (V c main_arg3) (((cfg0.win 3).blk t).view.emb y)) e).symm

/-- An index of the output array is in point `t`'s block iff each coordinate is in the block's range on its axis. -/
theorem mem_blk0 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v20).slice (win0_3.rect t)).set ↔ _
  rw [View.set_slice_whole, Rect.mem_set_unit]
  exact Iff.rfl

/-- Every row is in the block of the point `row / 2000`. -/
theorem gcn_cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_3 _, ?_⟩
  rw [mem_blk0]
  obtain ⟨-, -, -, -, -, -, e0, e1, -⟩ := idx0 ⟨(i 0).val / 2000, by rw [hN]; omega⟩
  intro a
  match a with
  | ⟨0, _⟩ =>
    show win0_3.index _ (0 : Fin 2) * 2000 ≤ (i 0).val ∧ (i 0).val < win0_3.index _ (0 : Fin 2) * 2000 + 2000
    rw [e0]; show (i 0).val / 2000 * 2000 ≤ (i 0).val ∧ (i 0).val < (i 0).val / 2000 * 2000 + 2000; omega
  | ⟨1, _⟩ =>
    show win0_3.index _ (1 : Fin 2) * 128 ≤ (i 1).val ∧ (i 1).val < win0_3.index _ (1 : Fin 2) * 128 + 128
    rw [e1]; omega

/-- THE OUTPUT ARRAY after region 0, whatever the region was entered with. -/
theorem gcn_final (c : Dev nD) :
    (dat0 V c).arrAt 3 cfg0.N = gcnOut (V c main_arg0) (V c main_v19) (V c main_arg3) :=
  (dat0 V c).arrAt_eq_of_cover 3 _ (fun t _ => gcn_flushed V c t) gcn_cover

end Cert.KernelIdeal.Bridge

end
-- ==== Proof.FcRegion.lean ====
/-
  Region 1 (bias, rectifier, the fully connected layer; 25 grid points, one block of 2000 rows per point) read as a value,
  at ANY contents `V` of the buffers when the region is entered: after the region its output array holds `fcOut` of the
  five input arrays as the region found them.

  Point `t` fetches rows `2000·t … 2000·t + 1999` of the aggregated features and of the normalisation column, the whole
  of the two bias rows and of the transposed weight, and writes back rows `2000·t …` of the output.
-/
import proofs.«136862_j82446192214207_1_alg».proof.Proof.Gen.KernelIdeal.Frame
import proofs.«136862_j82446192214207_1_alg».proof.Proof.LayerSpec
import Idealize.ShloMosaic.Lib.Pipeline.Value

set_option maxRecDepth 16384

noncomputable section

namespace Cert.KernelIdeal.Bridge

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem zero_off1 : (![0, 0] : Fin 2 → Nat) = fun _ => 0 := funext fun a => by fin_cases a <;> rfl

/-- The printed index maps of region 1, decided over its 25 points: the row-blocked windows are at block `t`, the
    small operands' windows at their one block. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 ∧ t.val < 25 :=
  (by decide +kernel : ∀ t : Fin grid1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 ∧ t.val < 25)

theorem lt25_1 (t : Fin cfg1.N) : t.val < 25 := (idx1 t).2.2.2.2.2.2.2.2.2.2.2.2

/-- The aggregated features' block at point `t` is rows `2000·t + p` of the array. -/
theorem blk1_0 (c : Dev nD) (t : Fin cfg1.N) (p : Fin 2000) (k : Fin 128) :
    (iblk1 V c 0 t : Vec Ideal S2000x128 .f32) (ix2 p k)
      = (V c main_v30 : S50000x128.Idx → Elt Ideal .f32) (ix2 (⟨t.val * 2000 + p.val, by have := lt25_1 t; omega⟩ : Fin 50000) k) := by
  obtain ⟨e0, e1, -⟩ := idx1 t
  unfold iblk1
  rw [View.read_apply]
  show V c main_v30 _ = V c main_v30 _
  refine congrArg _ (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 128 + 1 * k.val = k.val; rw [e1]; omega

/-- The normalisation column's block at point `t` is rows `2000·t + p` of the column. -/
theorem blk1_1 (c : Dev nD) (t : Fin cfg1.N) (p : Fin 2000) :
    (iblk1 V c 1 t : Vec Ideal S2000x1 .f32) (ix2 p (0 : Fin 1))
      = (V c main_v32 : S50000x1.Idx → Elt Ideal .f32) (ix2 (⟨t.val * 2000 + p.val, by have := lt25_1 t; omega⟩ : Fin 50000) (0 : Fin 1)) := by
  obtain ⟨-, -, e0, e1, -⟩ := idx1 t
  unfold iblk1
  rw [View.read_apply]
  show V c main_v32 _ = V c main_v32 _
  refine congrArg _ (funext fun a => Fin.ext ?_)
  match a with
  | ⟨0, _⟩ => show win1_1.index t (0 : Fin 2) * 2000 + 1 * p.val = t.val * 2000 + p.val; rw [e0]; omega
  | ⟨1, _⟩ => show win1_1.index t (1 : Fin 2) * 1 + 1 * 0 = 0; rw [e1]

/-- The first bias row's block is the row. -/
theorem blk1_2 (c : Dev nD) (t : Fin cfg1.N) (k : Fin 128) :
    (iblk1 V c 2 t : Vec Ideal S1x128 .f32) (ix2 (0 : Fin 1) k) = (V c main_v33 : S1x128.Idx → Elt Ideal .f32) (ix2 (0 : Fin 1) k) := by
  obtain ⟨-, -, -, -, e0, e1, -⟩ := idx1 t
  unfold iblk1
  rw [View.read_apply]
  show V c main_v33 _ = V c main_v33 _
  refine congrArg _ (funext fun a => Fin.ext ?_)
  match a with
  | ⟨0, _⟩ => show win1_2.index t (0 : Fin 2) * 1 + 1 * 0 = 0; rw [e0]
  | ⟨1, _⟩ => show win1_2.index t (1 : Fin 2) * 128 + 1 * k.val = k.val; rw [e1]; omega

/-- The transposed weight's block is the transposed weight. -/
theorem blk1_3 (c : Dev nD) (t : Fin cfg1.N) (k : Fin 128) (q : Fin 512) :
    (iblk1 V c 3 t : Vec Ideal S128x512 .f32) (ix2 k q) = (V c main_v31 : S128x512.Idx → Elt Ideal .f32) (ix2 k q) := by
  obtain ⟨-, -, -, -, -, -, e0, e1, -⟩ := idx1 t
  unfold iblk1
  rw [View.read_apply]
  show V c main_v31 _ = V c main_v31 _
  refine congrArg _ (funext fun a => Fin.ext ?_)
  match a with
  | ⟨0, _⟩ => show win1_3.index t (0 : Fin 2) * 128 + 1 * k.val = k.val; rw [e0]; omega
  | ⟨1, _⟩ => show win1_3.index t (1 : Fin 2) * 512 + 1 * q.val = q.val; rw [e1]; omega

/-- The second bias row's block is the row. -/
theorem blk1_4 (c : Dev nD) (t : Fin cfg1.N) (q : Fin 512) :
    (iblk1 V c 4 t : Vec Ideal S1x512 .f32) (ix2 (0 : Fin 1) q) = (V c main_v34 : S1x512.Idx → Elt Ideal .f32) (ix2 (0 : Fin 1) q) := by
  obtain ⟨-, -, -, -, -, -, -, -, e0, e1, -⟩ := idx1 t
  unfold iblk1
  rw [View.read_apply]
  show V c main_v34 _ = V c main_v34 _
  refine congrArg _ (funext fun a => Fin.ext ?_)
  match a with
  | ⟨0, _⟩ => show win1_4.index t (0 : Fin 2) * 1 + 1 * 0 = 0; rw [e0]
  | ⟨1, _⟩ => show win1_4.index t (1 : Fin 2) * 512 + 1 * q.val = q.val; rw [e1]; omega

/-- What point `t` leaves in the output's staging buffer, at row `p`, column `q`: row `2000·t + p` of `fcOut`. -/
theorem fc_point (c : Dev nD) (t : Fin cfg1.N) (p : Fin 2000) (q : Fin 512) :
    k1_pay1 (iblk1 V c 0 t) (iblk1 V c 1 t) (iblk1 V c 2 t) (iblk1 V c 3 t) (iblk1 V c 4 t) (ix2 p q)
      = fcOut (V c main_v30) (V c main_v32) (V c main_v33) (V c main_v31) (V c main_v34) (((cfg1.win 5).blk t).view.emb (ix2 p q)) := by
  obtain ⟨-, -, -, -, -, -, -, -, -, -, e0, e1, -⟩ := idx1 t
  refine fc_block (iblk1 V c 0 t) (iblk1 V c 1 t) (iblk1 V c 2 t) (iblk1 V c 3 t) (iblk1 V c 4 t)
    (V c main_v30) (V c main_v32) (V c main_v33) (V c main_v31) (V c main_v34) t.val (lt25_1 t)
    (fun p k => blk1_0 V c t p k) (fun p => blk1_1 V c t p) (fun k => blk1_2 V c t k) (fun k q => blk1_3 V c t k q)
    (fun q => blk1_4 V c t q) p q _ ?_ ?_
  · show win1_5.index t (0 : Fin 2) * 2000 + 1 * p.val = t.val * 2000 + p.val; rw [e0]; omega
  · show win1_5.index t (1 : Fin 2) * 512 + 1 * q.val = q.val; rw [e1]; omega

/-- WHAT POINT `t` WRITES BACK is block `t` of `fcOut` of the arrays as the region finds them. -/
theorem fc_flushed (c : Dev nD) (t : Fin cfg1.N) :
    (dat1 V c).flushed 5 t = ((cfg1.win 5).blk t).view.read (Elt Ideal)
      (fcOut (V c main_v30) (V c main_v32) (V c main_v33) (V c main_v31) (V c main_v34)) := by
  show (cfg1.win 5).cut (grid1.coords t) ((dat1 V c).after 5 t) = _
  rw [after1_5]
  unfold out1_5
  rw [View.canon_unit_zero zero_off1]
  simp only [View.ld_unit_zero (S := S2000x128) zero_off1, View.ld_unit_zero (S := S2000x1) zero_off1, View.ld_unit_zero (S := S1x128) zero_off1,
    View.ld_unit_zero (S := S128x512) zero_off1, View.ld_unit_zero (S := S1x512) zero_off1]
  funext j
  have e : (j : S2000x512.Idx) = ix2 (j 0) (j 1) := eq_ix2 j
  calc k1_pay1 (iblk1 V c 0 t) (iblk1 V c 1 t) (iblk1 V c 2 t) (iblk1 V c 3 t) (iblk1 V c 4 t) j
      = k1_pay1 (iblk1 V c 0 t) (iblk1 V c 1 t) (iblk1 V c 2 t) (iblk1 V c 3 t) (iblk1 V c 4 t) (ix2 (j 0) (j 1)) := congrArg _ e
    _ = fcOut (V c main_v30) (V c main_v32) (V c main_v33) (V c main_v31) (V c main_v34) (((cfg1.win 5).blk t).view.emb (ix2 (j 0) (j 1))) :=
        fc_point V c t (j 0) (j 1)
    _ = fcOut (V c main_v30) (V c main_v32) (V c main_v33) (V c main_v31) (V c main_v34) (((cfg1.win 5).blk t).view.emb j) :=
        (congrArg (fun y => fcOut (V c main_v30) (V c main_v32) (V c main_v33) (V c main_v31) (V c main_v34) (((cfg1.win 5).blk t).view.emb y)) e).symm

/-- An index of the output array is in point `t`'s block iff each coordinate is in the block's range on its axis. -/
theorem mem_blk1 (t : Fin cfg1.N) (i : S50000x512.Idx) :
    i ∈ ((cfg1.win 5).blk t).view.set ↔ ∀ a : Fin 2, win1_5.index t a * S2000x512.size a ≤ (i a).val ∧ (i a).val < win1_5.index t a * S2000x512.size a + S2000x512.size a := by
  show i ∈ ((View.whole main_v35).slice (win1_5.rect t)).set ↔ _
  rw [View.set_slice_whole, Rect.mem_set_unit]
  exact Iff.rfl

/-- Every row is in the block of the point `row / 2000`. -/
theorem fc_cover (i : S50000x512.Idx) : ∃ t : Fin cfg1.N, (cfg1.win 5).flush t = true ∧ i ∈ ((cfg1.win 5).blk t).view.set := by
  have hi0 : (i 0).val < 50000 := (i 0).isLt
  have hi1 : (i 1).val < 512 := (i 1).isLt
  have hN : cfg1.N = 25 := N_1
  refine ⟨⟨(i 0).val / 2000, by rw [hN]; omega⟩, flush1_5 _, ?_⟩
  rw [mem_blk1]
  obtain ⟨-, -, -, -, -, -, -, -, -, -, e0, e1, -⟩ := idx1 ⟨(i 0).val / 2000, by rw [hN]; omega⟩
  intro a
  match a with
  | ⟨0, _⟩ =>
    show win1_5.index _ (0 : Fin 2) * 2000 ≤ (i 0).val ∧ (i 0).val < win1_5.index _ (0 : Fin 2) * 2000 + 2000
    rw [e0]; show (i 0).val / 2000 * 2000 ≤ (i 0).val ∧ (i 0).val < (i 0).val / 2000 * 2000 + 2000; omega
  | ⟨1, _⟩ =>
    show win1_5.index _ (1 : Fin 2) * 512 ≤ (i 1).val ∧ (i 1).val < win1_5.index _ (1 : Fin 2) * 512 + 512
    rw [e1]; omega

/-- THE OUTPUT ARRAY after region 1, whatever the region was entered with. -/
theorem fc_final (c : Dev nD) :
    (dat1 V c).arrAt 5 cfg1.N = fcOut (V c main_v30) (V c main_v32) (V c main_v33) (V c main_v31) (V c main_v34) :=
  (dat1 V c).arrAt_eq_of_cover 5 _ (fun t _ => fc_flushed V c t) fc_cover

end Cert.KernelIdeal.Bridge

end
-- ==== Proof.ProgramValue.lean ====
/-
  The idealized kernel program's result as ONE function of its seven arguments, named piece by piece.

  Before region 0 the program computes, on the host, the out-degree and the in-degree of every node (a scatter-add of ones
  along an edge list, `degOf`), each turned into a normalisation factor `deg > 0 ? rsqrt (max deg 1) : 0` (`normOf`).
  Between the regions it passes messages — gathers the transformed rows at the edges' sources (a negative index wrapped by
  +50000) and scatter-adds them at the edges' destinations (`aggOf`) —, transposes the second weight, and lays the second
  normalisation vector out as a column and the two biases as rows. With the two regions' whole-array functions
  (`gcnOut`, `fcOut`) the result is `kernelOut`.
-/
import proofs.«136862_j82446192214207_1_alg».proof.Proof.LayerSpec

noncomputable section

namespace Cert.KernelIdeal.Bridge

open Idealize.ShloMosaic Idealize.ShloMosaic.TcCoe
open Cert.KernelIdeal Cert.KernelIdeal.Gen

/-! ## The host pieces, named -/

/-- How many edges list node `v` (as an extended real): ones scatter-added along an edge list into zeros. -/
def degOf (idx : (⟨S1600000, .i32⟩ : BufTy).Contents (Elt Ideal)) : (⟨S50000, .f32⟩ : BufTy).Contents (Elt Ideal) :=
  Host.scatterAdd (F := Ideal) scatter_S50000_S1600000x1_S1600000_n_0_0_1
    (broadcastInDim S50000 ![] Cert.KernelIdeal.Facts₀.bcast_S_S50000 (constant (F := Ideal) S_ .f32 0x00000000#32))
    (broadcastInDim S1600000x1 ![0] Cert.KernelIdeal.Facts₀.bcast_S1600000_S1600000x1_0 idx)
    (broadcastInDim S1600000 ![] Cert.KernelIdeal.Facts₀.bcast_S_S1600000 (constant (F := Ideal) S_ .f32 0x3F800000#32))

/-- The normalisation factor of every node: `rsqrt (max deg 1)` where the degree is positive, zero elsewhere. -/
def normOf (idx : (⟨S1600000, .i32⟩ : BufTy).Contents (Elt Ideal)) : (⟨S50000, .f32⟩ : BufTy).Contents (Elt Ideal) :=
  select (cmpf (F := Ideal) .ogt (degOf idx) (broadcastInDim S50000 ![] Cert.KernelIdeal.Facts₀.bcast_S_S50000 (constant (F := Ideal) S_ .f32 0x00000000#32)))
    (Host.rsqrt (F := Ideal) (maximumf (degOf idx) (broadcastInDim S50000 ![] Cert.KernelIdeal.Facts₀.bcast_S_S50000 (constant (F := Ideal) S_ .f32 0x3F800000#32))))
    (broadcastInDim S50000 ![] Cert.KernelIdeal.Facts₀.bcast_S_S50000 (id (constant (F := Ideal) S_ .f32 0x00000000#32)))

/-- The message passing: rows of `xw` gathered at the edges' sources (a negative source wrapped by +50000), summed at
    the edges' destinations. -/
def aggOf (xw : (⟨S50000x128, .f32⟩ : BufTy).Contents (Elt Ideal)) (src dst : (⟨S1600000, .i32⟩ : BufTy).Contents (Elt Ideal)) :
    (⟨S50000x128, .f32⟩ : BufTy).Contents (Elt Ideal) :=
  Host.scatterAdd (F := Ideal) scatter_S50000x128_S1600000x1_S1600000x128_1_0_0_1
    (broadcastInDim S50000x128 ![] Cert.KernelIdeal.Facts₀.bcast_S_S50000x128 (constant (F := Ideal) S_ .f32 0x00000000#32))
    (broadcastInDim S1600000x1 ![0] Cert.KernelIdeal.Facts₀.bcast_S1600000_S1600000x1_0 dst)
    (Host.gather gather_S50000x128_S1600000x1_S1600000x128_1_0_n_n_0_1_1128 xw
      (broadcastInDim S1600000x1 ![0] Cert.KernelIdeal.Facts₀.bcast_S1600000_S1600000x1_0
        (select (cmpi .slt src (broadcastInDim S1600000 ![] Cert.KernelIdeal.Facts₀.bcast_S_S1600000 (constantI S_ 32 0#32)))
          (addi src (broadcastInDim S1600000 ![] Cert.KernelIdeal.Facts₀.bcast_S_S1600000 (constantI S_ 32 50000#32))) src)))

/-- A node vector as a `[50000,1]` column. -/
def colOf (n : (⟨S50000, .f32⟩ : BufTy).Contents (Elt Ideal)) : (⟨S50000x1, .f32⟩ : BufTy).Contents (Elt Ideal) :=
  fun i => shapeCast S50000x1 n Cert.KernelIdeal.Facts₀.shapeCasts_S50000_S50000x1 i
/-- The first bias as a `[1,128]` row, the second as a `[1,512]` row. -/
def row128Of (b : (⟨S128, .f32⟩ : BufTy).Contents (Elt Ideal)) : (⟨S1x128, .f32⟩ : BufTy).Contents (Elt Ideal) :=
  fun i => shapeCast S1x128 b Cert.KernelIdeal.Facts₀.shapeCasts_S128_S1x128 i
def row512Of (b : (⟨S512, .f32⟩ : BufTy).Contents (Elt Ideal)) : (⟨S1x512, .f32⟩ : BufTy).Contents (Elt Ideal) :=
  fun i => shapeCast S1x512 b Cert.KernelIdeal.Facts₀.shapeCasts_S512_S1x512 i
/-- The second weight transposed. -/
def wtOf (w : (⟨S512x128, .f32⟩ : BufTy).Contents (Elt Ideal)) : (⟨S128x512, .f32⟩ : BufTy).Contents (Elt Ideal) :=
  transpose S128x512 [1, 0] w Cert.KernelIdeal.Facts₀.transposes_S512x128_S128x512_1_0

/-- THE KERNEL PROGRAM'S RESULT as a function of the seven arguments. -/
def kernelOut (x0 : (⟨S50000x512, .f32⟩ : BufTy).Contents (Elt Ideal)) (x1 x2 : (⟨S1600000, .i32⟩ : BufTy).Contents (Elt Ideal))
    (x3 : (⟨S512x128, .f32⟩ : BufTy).Contents (Elt Ideal)) (x4 : (⟨S128, .f32⟩ : BufTy).Contents (Elt Ideal))
    (x5 : (⟨S512x128, .f32⟩ : BufTy).Contents (Elt Ideal)) (x6 : (⟨S512, .f32⟩ : BufTy).Contents (Elt Ideal)) :
    (⟨S50000x512, .f32⟩ : BufTy).Contents (Elt Ideal) :=
  fcOut (aggOf (gcnOut x0 (colOf (normOf x1)) x3) x1 x2) (colOf (normOf x2)) (row128Of x4) (wtOf x5) (row512Of x6)

end Cert.KernelIdeal.Bridge

end
-- ==== Proof.HostReads.lean ====
/-
  What each buffer the two regions read holds when its region is entered, as a function of the seven arguments, and so
  the program's result buffer after the last region.

  @main's host operations come in stretches (the operations of @main between calls, and each call's inlined body).
  Each stretch is read ONCE, at an arbitrary contents `V` of the buffers before it: what it leaves in the buffers later
  stretches or a region read, as the operations' term of `V` at the buffers it reads. The stretches are then composed from
  the launch memory. None writes an argument, and region 0 writes only its own output, so the arguments stay as launched.
-/
import proofs.«136862_j82446192214207_1_alg».proof.Proof.GcnRegion
import proofs.«136862_j82446192214207_1_alg».proof.Proof.FcRegion
import proofs.«136862_j82446192214207_1_alg».proof.Proof.ProgramValue
import Idealize.ShloMosaic.Lib.StableHlo.Run

set_option maxRecDepth 16384

noncomputable section

namespace Cert.KernelIdeal.Bridge

open Idealize.ShloMosaic Idealize.ShloMosaic.TcCoe Idealize.SL.Sem Idealize.ShloMosaic.StableHlo
open Cert.KernelIdeal Cert.KernelIdeal.Gen

/-! ## The stretches before region 0, each at any contents `V` -/

section Stretches

variable (V : Valuation τ sig (Elt Ideal))

/-- Stretch 0: the two degree counts, and the first count's comparison with zero and `rsqrt (max · 1)`. -/
theorem s0_v6 : after hostOps0 V (Proc.devRef .tc main_v6) = degOf (V (Proc.devRef .tc main_arg2)) := by
  after_results_simp; rfl
theorem s0_v8 : after hostOps0 V (Proc.devRef .tc main_v8)
    = cmpf (F := Ideal) .ogt (degOf (V (Proc.devRef .tc main_arg1)))
        (broadcastInDim S50000 ![] Cert.KernelIdeal.Facts₀.bcast_S_S50000 (constant (F := Ideal) S_ .f32 0x00000000#32)) := by
  after_results_simp; rfl
theorem s0_v11 : after hostOps0 V (Proc.devRef .tc main_v11)
    = Host.rsqrt (F := Ideal) (maximumf (degOf (V (Proc.devRef .tc main_arg1)))
        (broadcastInDim S50000 ![] Cert.KernelIdeal.Facts₀.bcast_S_S50000 (constant (F := Ideal) S_ .f32 0x3F800000#32))) := by
  after_results_simp; rfl
theorem s0_cst4 : after hostOps0 V (Proc.devRef .tc main_cst_4) = constant (F := Ideal) S_ .f32 0x00000000#32 := by
  after_results_simp

/-- Stretch 1 (the first `where`): the first normalisation vector from the three buffers it selects among. -/
theorem s1_v12 : after hostOps0_1 V (Proc.devRef .tc main_v12)
    = select (V (Proc.devRef .tc main_v8)) (V (Proc.devRef .tc main_v11))
        (broadcastInDim S50000 ![] Cert.KernelIdeal.Facts₀.bcast_S_S50000 (id (V (Proc.devRef .tc main_cst_4)))) := by
  after_results; rfl
theorem s1_v6 : after hostOps0_1 V (Proc.devRef .tc main_v6) = V (Proc.devRef .tc main_v6) := by after_results

/-- Stretch 2: the second count's comparison with zero and `rsqrt (max · 1)`. -/
theorem s2_v14 : after hostOps0_2 V (Proc.devRef .tc main_v14)
    = cmpf (F := Ideal) .ogt (V (Proc.devRef .tc main_v6))
        (broadcastInDim S50000 ![] Cert.KernelIdeal.Facts₀.bcast_S_S50000 (constant (F := Ideal) S_ .f32 0x00000000#32)) := by
  after_results
theorem s2_v17 : after hostOps0_2 V (Proc.devRef .tc main_v17)
    = Host.rsqrt (F := Ideal) (maximumf (V (Proc.devRef .tc main_v6))
        (broadcastInDim S50000 ![] Cert.KernelIdeal.Facts₀.bcast_S_S50000 (constant (F := Ideal) S_ .f32 0x3F800000#32))) := by
  after_results
theorem s2_cst7 : after hostOps0_2 V (Proc.devRef .tc main_cst_7) = constant (F := Ideal) S_ .f32 0x00000000#32 := by
  after_results
theorem s2_v12 : after hostOps0_2 V (Proc.devRef .tc main_v12) = V (Proc.devRef .tc main_v12) := by after_results

/-- Stretch 3 (the second `where`): the second normalisation vector. -/
theorem s3_v18 : after hostOps0_3 V (Proc.devRef .tc main_v18)
    = select (V (Proc.devRef .tc main_v14)) (V (Proc.devRef .tc main_v17))
        (broadcastInDim S50000 ![] Cert.KernelIdeal.Facts₀.bcast_S_S50000 (id (V (Proc.devRef .tc main_cst_7)))) := by
  after_results; rfl
theorem s3_v12 : after hostOps0_3 V (Proc.devRef .tc main_v12) = V (Proc.devRef .tc main_v12) := by after_results

/-- Stretch 4: the first vector reshaped to a column. -/
theorem s4_v19 : after hostOps0_4 V (Proc.devRef .tc main_v19) = colOf (V (Proc.devRef .tc main_v12)) := by
  after_results; rfl
theorem s4_v18 : after hostOps0_4 V (Proc.devRef .tc main_v18) = V (Proc.devRef .tc main_v18) := by after_results

end Stretches

variable (m : (ℓ : Loc nD τ sig) → Buf (Elt Ideal) ℓ) (ρ : Dev nD → PrngReg)

/-! ## What region 0 is entered with -/

theorem V5_arg0 (c : Dev nD) : V5 m ρ c main_arg0 = m ((c : Thread nD τ).loc main_arg0) := by
  show W5 m ρ c (Proc.devRef .tc main_arg0) = _
  after_results
theorem V5_arg3 (c : Dev nD) : V5 m ρ c main_arg3 = m ((c : Thread nD τ).loc main_arg3) := by
  show W5 m ρ c (Proc.devRef .tc main_arg3) = _
  after_results

/-- The first normalisation vector, composed through the stretches from the launch memory. -/
theorem W4_v12 (c : Dev nD) : W4 m ρ c (Proc.devRef .tc main_v12) = normOf (m ((c : Thread nD τ).loc main_arg1)) := by
  have h8 : W1 m ρ c (Proc.devRef .tc main_v8) = _ := s0_v8 (W0 m ρ c)
  have h11 : W1 m ρ c (Proc.devRef .tc main_v11) = _ := s0_v11 (W0 m ρ c)
  have h4 : W1 m ρ c (Proc.devRef .tc main_cst_4) = _ := s0_cst4 (W0 m ρ c)
  refine (s3_v12 (W3 m ρ c)).trans ((s2_v12 (W2 m ρ c)).trans ((s1_v12 (W1 m ρ c)).trans ?_))
  rw [h8, h11, h4]
  rfl

theorem V5_v19 (c : Dev nD) : V5 m ρ c main_v19 = colOf (normOf (m ((c : Thread nD τ).loc main_arg1))) :=
  (s4_v19 (W4 m ρ c)).trans (congrArg colOf (W4_v12 m ρ c))

/-- The second normalisation vector likewise. -/
theorem W5_v18 (c : Dev nD) : W5 m ρ c (Proc.devRef .tc main_v18) = normOf (m ((c : Thread nD τ).loc main_arg2)) := by
  have h6 : W2 m ρ c (Proc.devRef .tc main_v6) = degOf (m ((c : Thread nD τ).loc main_arg2)) :=
    (s1_v6 (W1 m ρ c)).trans (s0_v6 (W0 m ρ c))
  have h14 : W3 m ρ c (Proc.devRef .tc main_v14) = _ := s2_v14 (W2 m ρ c)
  have h17 : W3 m ρ c (Proc.devRef .tc main_v17) = _ := s2_v17 (W2 m ρ c)
  have h7 : W3 m ρ c (Proc.devRef .tc main_cst_7) = _ := s2_cst7 (W2 m ρ c)
  refine (s4_v18 (W4 m ρ c)).trans ((s3_v18 (W3 m ρ c)).trans ?_)
  rw [h14, h17, h7, h6]
  rfl

/-! ## What region 0 leaves -/

theorem W6_v20 (c : Dev nD) : W6 m ρ c (Proc.devRef .tc main_v20)
    = gcnOut (m ((c : Thread nD τ).loc main_arg0)) (colOf (normOf (m ((c : Thread nD τ).loc main_arg1)))) (m ((c : Thread nD τ).loc main_arg3)) :=
  (W6_arr m ρ c 3).trans ((gcn_final (V5 m ρ) c).trans (by rw [V5_arg0, V5_v19, V5_arg3]))

theorem W6_arg1 (c : Dev nD) : W6 m ρ c (Proc.devRef .tc main_arg1) = m ((c : Thread nD τ).loc main_arg1) :=
  (W6_of_ne m ρ c main_arg1 (by decide)).trans (by show W5 m ρ c (Proc.devRef .tc main_arg1) = _; after_results)
theorem W6_arg2 (c : Dev nD) : W6 m ρ c (Proc.devRef .tc main_arg2) = m ((c : Thread nD τ).loc main_arg2) :=
  (W6_of_ne m ρ c main_arg2 (by decide)).trans (by show W5 m ρ c (Proc.devRef .tc main_arg2) = _; after_results)
theorem W6_arg4 (c : Dev nD) : W6 m ρ c (Proc.devRef .tc main_arg4) = m ((c : Thread nD τ).loc main_arg4) :=
  (W6_of_ne m ρ c main_arg4 (by decide)).trans (by show W5 m ρ c (Proc.devRef .tc main_arg4) = _; after_results)
theorem W6_arg5 (c : Dev nD) : W6 m ρ c (Proc.devRef .tc main_arg5) = m ((c : Thread nD τ).loc main_arg5) :=
  (W6_of_ne m ρ c main_arg5 (by decide)).trans (by show W5 m ρ c (Proc.devRef .tc main_arg5) = _; after_results)
theorem W6_arg6 (c : Dev nD) : W6 m ρ c (Proc.devRef .tc main_arg6) = m ((c : Thread nD τ).loc main_arg6) :=
  (W6_of_ne m ρ c main_arg6 (by decide)).trans (by show W5 m ρ c (Proc.devRef .tc main_arg6) = _; after_results)
theorem W6_v18 (c : Dev nD) : W6 m ρ c (Proc.devRef .tc main_v18) = normOf (m ((c : Thread nD τ).loc main_arg2)) :=
  (W6_of_ne m ρ c main_v18 (by decide)).trans (W5_v18 m ρ c)

/-! ## What region 1 is entered with -/

theorem V7_v30 (c : Dev nD) : V7 m ρ c main_v30
    = aggOf (gcnOut (m ((c : Thread nD τ).loc main_arg0)) (colOf (normOf (m ((c : Thread nD τ).loc main_arg1)))) (m ((c : Thread nD τ).loc main_arg3)))
        (m ((c : Thread nD τ).loc main_arg1)) (m ((c : Thread nD τ).loc main_arg2)) := by
  show W7 m ρ c (Proc.devRef .tc main_v30) = _
  after_results
  rw [W6_v20, W6_arg1, W6_arg2]
  rfl
theorem V7_v32 (c : Dev nD) : V7 m ρ c main_v32 = colOf (normOf (m ((c : Thread nD τ).loc main_arg2))) := by
  show W7 m ρ c (Proc.devRef .tc main_v32) = _
  after_results
  rw [W6_v18]
  rfl
theorem V7_v33 (c : Dev nD) : V7 m ρ c main_v33 = row128Of (m ((c : Thread nD τ).loc main_arg4)) := by
  show W7 m ρ c (Proc.devRef .tc main_v33) = _
  after_results
  rw [W6_arg4]
  rfl
theorem V7_v31 (c : Dev nD) : V7 m ρ c main_v31 = wtOf (m ((c : Thread nD τ).loc main_arg5)) := by
  show W7 m ρ c (Proc.devRef .tc main_v31) = _
  after_results
  rw [W6_arg5]
  rfl
theorem V7_v34 (c : Dev nD) : V7 m ρ c main_v34 = row512Of (m ((c : Thread nD τ).loc main_arg6)) := by
  show W7 m ρ c (Proc.devRef .tc main_v34) = _
  after_results
  rw [W6_arg6]
  rfl

/-! ## The result buffer after the last region -/

theorem W8_v35 (c : Dev nD) : W8 m ρ c (Proc.devRef .tc main_v35)
    = kernelOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) :=
  (W8_arr m ρ c 5).trans ((fc_final (V7 m ρ) c).trans (by rw [V7_v30, V7_v32, V7_v33, V7_v31, V7_v34]; rfl))

end Cert.KernelIdeal.Bridge

end
-- ==== Proof.RefLayers.lean ====
/-
  The reference's two dense layers are the same whole-array functions the kernel's regions compute.

  The reference scales the features by the normalisation vector broadcast `[50000] → [50000,1] → [50000,512]` and takes ONE
  `dot_general` with the weight; the kernel's region receives the vector reshaped to a `[50000,1]` column. Entry (r, 0) of the
  reshaped column and entry (r, k) of the double broadcast are both entry r of the vector, and the `dot_general` at (r, s)
  is the sum over the 512 contraction coordinates: so the reference's layer is `gcnOut`. The second layer likewise: the
  bias rows are broadcasts on one side and `[1,n]` reshapes on the other, the rectifier a `maximum` with a broadcast zero on
  both, and the `dot_general` with the transposed weight the sum over 128 coordinates: `fcOut`.
-/
import proofs.«136862_j82446192214207_1_alg».proof.Proof.Gen.ReferenceIdeal
import proofs.«136862_j82446192214207_1_alg».proof.Proof.ProgramValue
import Idealize.ShloMosaic.Lib.ValueLayout

noncomputable section

namespace Cert.Bridge

open Idealize.ShloMosaic Idealize.ShloMosaic.ValueIdx
open Cert.KernelIdeal.Bridge

/-! ## The reference's two products read at an index -/

/-- Where the reference's ref_gcn product reads its operands: output index `i`, contraction coordinate `q`. -/
theorem ref_gcn_lhs0 (i : Cert.ReferenceIdeal.S50000x128.Idx) (q : Cert.ReferenceIdeal.dot_S50000x512_S512x128_S50000x128_1_0_0_1_n_n.contr.Idx) : (Cert.ReferenceIdeal.dot_S50000x512_S512x128_S50000x128_1_0_0_1_n_n.lhsIdx i q 0).val = (i 0).val := by
  unfold DotDims.lhsIdx
  rw [dif_neg (show ¬(0 : Fin Cert.ReferenceIdeal.S50000x512.rank) ∈ Cert.ReferenceIdeal.dot_S50000x512_S512x128_S50000x128_1_0_0_1_n_n.lhsBatch by decide), dif_pos (show (0 : Fin Cert.ReferenceIdeal.S50000x512.rank) ∈ Cert.ReferenceIdeal.dot_S50000x512_S512x128_S50000x128_1_0_0_1_n_n.lhsNonContracting by decide)]
  rfl
theorem ref_gcn_lhs1 (i : Cert.ReferenceIdeal.S50000x128.Idx) (q : Cert.ReferenceIdeal.dot_S50000x512_S512x128_S50000x128_1_0_0_1_n_n.contr.Idx) : (Cert.ReferenceIdeal.dot_S50000x512_S512x128_S50000x128_1_0_0_1_n_n.lhsIdx i q 1).val = (q ⟨0, by decide⟩).val :=
  Cert.ReferenceIdeal.dot_S50000x512_S512x128_S50000x128_1_0_0_1_n_n.lhsIdx_val_of_single rfl i q
theorem ref_gcn_rhs0 (i : Cert.ReferenceIdeal.S50000x128.Idx) (q : Cert.ReferenceIdeal.dot_S50000x512_S512x128_S50000x128_1_0_0_1_n_n.contr.Idx) : (Cert.ReferenceIdeal.dot_S50000x512_S512x128_S50000x128_1_0_0_1_n_n.rhsIdx i q 0).val = (q ⟨0, by decide⟩).val :=
  Cert.ReferenceIdeal.dot_S50000x512_S512x128_S50000x128_1_0_0_1_n_n.rhsIdx_val_of_single rfl i q
theorem ref_gcn_rhs1 (i : Cert.ReferenceIdeal.S50000x128.Idx) (q : Cert.ReferenceIdeal.dot_S50000x512_S512x128_S50000x128_1_0_0_1_n_n.contr.Idx) : (Cert.ReferenceIdeal.dot_S50000x512_S512x128_S50000x128_1_0_0_1_n_n.rhsIdx i q 1).val = (i 1).val := by
  unfold DotDims.rhsIdx
  rw [dif_neg (show ¬(1 : Fin Cert.ReferenceIdeal.S512x128.rank) ∈ Cert.ReferenceIdeal.dot_S50000x512_S512x128_S50000x128_1_0_0_1_n_n.rhsBatch by decide), dif_pos (show (1 : Fin Cert.ReferenceIdeal.S512x128.rank) ∈ Cert.ReferenceIdeal.dot_S50000x512_S512x128_S50000x128_1_0_0_1_n_n.rhsNonContracting by decide)]
  rfl

/-- The reference's ref_gcn `dot_general` at row `p`, column `q`: the plain sum over the 512 contraction coordinates. -/
theorem ref_gcn_dot_apply {φ₁ φ₂ : FTy} (l : FVec Ideal Cert.ReferenceIdeal.S50000x512 φ₁) (r : FVec Ideal Cert.ReferenceIdeal.S512x128 φ₂) (p : Fin 50000) (q : Fin 128) :
    Host.dotGeneral Cert.ReferenceIdeal.dot_S50000x512_S512x128_S50000x128_1_0_0_1_n_n none l r (ix2 p q) = ∑ k : Fin 512, l (ix2 p k) * r (ix2 k q) := by
  simp only [Host.dotGeneral]
  rw [Ideal.dotGeneral_apply, ← Equiv.sum_comp (contrEquiv1 Cert.ReferenceIdeal.dot_S50000x512_S512x128_S50000x128_1_0_0_1_n_n 512 rfl rfl).symm]
  refine Finset.sum_congr rfl fun k _ => ?_
  have hk := contrEquiv1_symm_val Cert.ReferenceIdeal.dot_S50000x512_S512x128_S50000x128_1_0_0_1_n_n 512 rfl rfl k
  have el : Cert.ReferenceIdeal.dot_S50000x512_S512x128_S50000x128_1_0_0_1_n_n.lhsIdx (ix2 p q) ((contrEquiv1 Cert.ReferenceIdeal.dot_S50000x512_S512x128_S50000x128_1_0_0_1_n_n 512 rfl rfl).symm k) = ix2 p k := funext fun a => Fin.ext (by
    match a with
    | ⟨0, _⟩ => exact ref_gcn_lhs0 _ _
    | ⟨1, _⟩ => exact (ref_gcn_lhs1 _ _).trans hk)
  have er : Cert.ReferenceIdeal.dot_S50000x512_S512x128_S50000x128_1_0_0_1_n_n.rhsIdx (ix2 p q) ((contrEquiv1 Cert.ReferenceIdeal.dot_S50000x512_S512x128_S50000x128_1_0_0_1_n_n 512 rfl rfl).symm k) = ix2 k q := funext fun a => Fin.ext (by
    match a with
    | ⟨0, _⟩ => exact (ref_gcn_rhs0 _ _).trans hk
    | ⟨1, _⟩ => exact ref_gcn_rhs1 _ _)
  rw [el, er]

/-- Where the reference's ref_fc product reads its operands: output index `i`, contraction coordinate `q`. -/
theorem ref_fc_lhs0 (i : Cert.ReferenceIdeal.S50000x512.Idx) (q : Cert.ReferenceIdeal.dot_S50000x128_S128x512_S50000x512_1_0_0_1_n_n.contr.Idx) : (Cert.ReferenceIdeal.dot_S50000x128_S128x512_S50000x512_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x512_S50000x512_1_0_0_1_n_n.lhsBatch by decide), dif_pos (show (0 : Fin Cert.ReferenceIdeal.S50000x128.rank) ∈ Cert.ReferenceIdeal.dot_S50000x128_S128x512_S50000x512_1_0_0_1_n_n.lhsNonContracting by decide)]
  rfl
theorem ref_fc_lhs1 (i : Cert.ReferenceIdeal.S50000x512.Idx) (q : Cert.ReferenceIdeal.dot_S50000x128_S128x512_S50000x512_1_0_0_1_n_n.contr.Idx) : (Cert.ReferenceIdeal.dot_S50000x128_S128x512_S50000x512_1_0_0_1_n_n.lhsIdx i q 1).val = (q ⟨0, by decide⟩).val :=
  Cert.ReferenceIdeal.dot_S50000x128_S128x512_S50000x512_1_0_0_1_n_n.lhsIdx_val_of_single rfl i q
theorem ref_fc_rhs0 (i : Cert.ReferenceIdeal.S50000x512.Idx) (q : Cert.ReferenceIdeal.dot_S50000x128_S128x512_S50000x512_1_0_0_1_n_n.contr.Idx) : (Cert.ReferenceIdeal.dot_S50000x128_S128x512_S50000x512_1_0_0_1_n_n.rhsIdx i q 0).val = (q ⟨0, by decide⟩).val :=
  Cert.ReferenceIdeal.dot_S50000x128_S128x512_S50000x512_1_0_0_1_n_n.rhsIdx_val_of_single rfl i q
theorem ref_fc_rhs1 (i : Cert.ReferenceIdeal.S50000x512.Idx) (q : Cert.ReferenceIdeal.dot_S50000x128_S128x512_S50000x512_1_0_0_1_n_n.contr.Idx) : (Cert.ReferenceIdeal.dot_S50000x128_S128x512_S50000x512_1_0_0_1_n_n.rhsIdx i q 1).val = (i 1).val := by
  unfold DotDims.rhsIdx
  rw [dif_neg (show ¬(1 : Fin Cert.ReferenceIdeal.S128x512.rank) ∈ Cert.ReferenceIdeal.dot_S50000x128_S128x512_S50000x512_1_0_0_1_n_n.rhsBatch by decide), dif_pos (show (1 : Fin Cert.ReferenceIdeal.S128x512.rank) ∈ Cert.ReferenceIdeal.dot_S50000x128_S128x512_S50000x512_1_0_0_1_n_n.rhsNonContracting by decide)]
  rfl

/-- The reference's ref_fc `dot_general` at row `p`, column `q`: the plain sum over the 128 contraction coordinates. -/
theorem ref_fc_dot_apply {φ₁ φ₂ : FTy} (l : FVec Ideal Cert.ReferenceIdeal.S50000x128 φ₁) (r : FVec Ideal Cert.ReferenceIdeal.S128x512 φ₂) (p : Fin 50000) (q : Fin 512) :
    Host.dotGeneral Cert.ReferenceIdeal.dot_S50000x128_S128x512_S50000x512_1_0_0_1_n_n none l r (ix2 p q) = ∑ k : Fin 128, l (ix2 p k) * r (ix2 k q) := by
  simp only [Host.dotGeneral]
  rw [Ideal.dotGeneral_apply, ← Equiv.sum_comp (contrEquiv1 Cert.ReferenceIdeal.dot_S50000x128_S128x512_S50000x512_1_0_0_1_n_n 128 rfl rfl).symm]
  refine Finset.sum_congr rfl fun k _ => ?_
  have hk := contrEquiv1_symm_val Cert.ReferenceIdeal.dot_S50000x128_S128x512_S50000x512_1_0_0_1_n_n 128 rfl rfl k
  have el : Cert.ReferenceIdeal.dot_S50000x128_S128x512_S50000x512_1_0_0_1_n_n.lhsIdx (ix2 p q) ((contrEquiv1 Cert.ReferenceIdeal.dot_S50000x128_S128x512_S50000x512_1_0_0_1_n_n 128 rfl rfl).symm k) = ix2 p k := funext fun a => Fin.ext (by
    match a with
    | ⟨0, _⟩ => exact ref_fc_lhs0 _ _
    | ⟨1, _⟩ => exact (ref_fc_lhs1 _ _).trans hk)
  have er : Cert.ReferenceIdeal.dot_S50000x128_S128x512_S50000x512_1_0_0_1_n_n.rhsIdx (ix2 p q) ((contrEquiv1 Cert.ReferenceIdeal.dot_S50000x128_S128x512_S50000x512_1_0_0_1_n_n 128 rfl rfl).symm k) = ix2 k q := funext fun a => Fin.ext (by
    match a with
    | ⟨0, _⟩ => exact (ref_fc_rhs0 _ _).trans hk
    | ⟨1, _⟩ => exact ref_fc_rhs1 _ _)
  rw [el, er]

/-! ## Vectors laid out as columns and rows -/

/-- A `[50000]` vector reshaped to a `[50000,1]` column, at row `r`. -/
theorem col_apply {α : Type} (n : (⟨1, ![50000]⟩ : Shape).Idx → α) (h : (⟨1, ![50000]⟩ : Shape).ShapeCasts ⟨2, ![50000, 1]⟩) (r : Fin 50000) :
    shapeCast ⟨2, ![50000, 1]⟩ n h (ix2 r (0 : Fin 1)) = n (ix1 r) := by
  refine shapeCast_apply n h _ (ix1 r) ?_
  rw [Shape.rowMajor_val_one, Shape.rowMajor_val_two]
  show r.val = r.val * 1 + 0
  omega

/-- The same vector broadcast `[50000] → [50000,1] → [50000,K]`, at row `r`, lane `k`. -/
theorem bcast_col_apply {α : Type} {K : Nat} (n : (⟨1, ![50000]⟩ : Shape).Idx → α)
    (h1 : (⟨1, ![50000]⟩ : Shape).BroadcastsInDim ⟨2, ![50000, 1]⟩ ![0])
    (h2 : (⟨2, ![50000, 1]⟩ : Shape).BroadcastsInDim ⟨2, ![50000, K]⟩ ![0, 1]) (r : Fin 50000) (k : Fin K) :
    broadcastInDim ⟨2, ![50000, K]⟩ ![0, 1] h2 (broadcastInDim ⟨2, ![50000, 1]⟩ ![0] h1 n) (ix2 r k) = n (ix1 r) := by
  refine (broadcastInDim_apply _ h2 _ (ix2 r k) (ix2 r (0 : Fin 1)) fun a => ?_).trans
    (broadcastInDim_apply _ h1 n (ix2 r (0 : Fin 1)) (ix1 r) fun a => ?_)
  · match a with
    | ⟨0, _⟩ => rfl
    | ⟨1, _⟩ => rfl
  · match a with
    | ⟨0, _⟩ => rfl

/-- A `[K]` vector broadcast `[K] → [1,K] → [50000,K]`, at row `r`, lane `k`. -/
theorem bcast_row_apply {α : Type} {K : Nat} (b : (⟨1, ![K]⟩ : Shape).Idx → α)
    (h1 : (⟨1, ![K]⟩ : Shape).BroadcastsInDim ⟨2, ![1, K]⟩ ![1])
    (h2 : (⟨2, ![1, K]⟩ : Shape).BroadcastsInDim ⟨2, ![50000, K]⟩ ![0, 1]) (hK : K ≠ 1) (r : Fin 50000) (k : Fin K) :
    broadcastInDim ⟨2, ![50000, K]⟩ ![0, 1] h2 (broadcastInDim ⟨2, ![1, K]⟩ ![1] h1 b) (ix2 r k) = b (ix1 k) := by
  refine (broadcastInDim_apply _ h2 _ (ix2 r k) (ix2 (0 : Fin 1) k) fun a => ?_).trans
    (broadcastInDim_apply _ h1 b (ix2 (0 : Fin 1) k) (ix1 k) fun a => ?_)
  · match a with
    | ⟨0, _⟩ => rfl
    | ⟨1, _⟩ => show k.val = if K = 1 then 0 else k.val; rw [if_neg hK]
  · match a with
    | ⟨0, _⟩ => show k.val = if K = 1 then 0 else k.val; rw [if_neg hK]

/-- A `[K]` vector reshaped to a `[1,K]` row, at lane `k`. -/
theorem row_apply {α : Type} {K : Nat} (b : (⟨1, ![K]⟩ : Shape).Idx → α) (h : (⟨1, ![K]⟩ : Shape).ShapeCasts ⟨2, ![1, K]⟩) (k : Fin K) :
    shapeCast ⟨2, ![1, K]⟩ b h (ix2 (0 : Fin 1) k) = b (ix1 k) :=
  shapeCast_a_1a_apply b h 0 k

/-- A scalar zero broadcast over `[50000,128]` is the extended real the zero word denotes, everywhere. -/
theorem bcast_zero_apply (h : (⟨0, ![]⟩ : Shape).BroadcastsInDim ⟨2, ![50000, 128]⟩ ![]) (i : (⟨2, ![50000, 128]⟩ : Shape).Idx) :
    broadcastInDim ⟨2, ![50000, 128]⟩ ![] h (constant (F := Ideal) ⟨0, ![]⟩ .f32 0x00000000#32) i = Ideal.ofBits .f32 0x00000000#32 :=
  broadcastInDim_apply _ h _ i ix0 fun a => a.elim0

/-! ## The two layers -/

section Layers

open Cert.ReferenceIdeal Cert.ReferenceIdeal.Gen

/-- The reference's first dense layer — the features times the doubly broadcast normalisation vector, one
    `dot_general` with the weight — is `gcnOut` of the features, the vector as a column, and the weight. -/
theorem ref_gcn_eq (X : FVec Ideal S50000x512 .f32) (n : FVec Ideal S50000 .f32)
    (W : FVec Ideal S512x128 .f32) :
    Host.dotGeneral (F := Ideal) dot_S50000x512_S512x128_S50000x128_1_0_0_1_n_n none
        (mulf (F := Ideal) X (broadcastInDim S50000x512 ![0, 1] bcast_S50000x1_S50000x512_0_1 (broadcastInDim S50000x1 ![0] bcast_S50000_S50000x1_0 n))) W
      = gcnOut X (colOf n) W := by
  funext i
  obtain ⟨p, q, rfl⟩ : ∃ (p : Fin 50000) (q : Fin 128), i = ix2 p q := ⟨i 0, i 1, eq_ix2 i⟩
  rw [ref_gcn_dot_apply, gcnOut_apply X (colOf n) W (ix2 p q) p q rfl rfl]
  refine Finset.sum_congr rfl fun k _ => ?_
  rw [mulf_apply, bcast_col_apply n bcast_S50000_S50000x1_0 bcast_S50000x1_S50000x512_0_1 p k]
  exact congrArg (fun z => X (ix2 p k) * z * W (ix2 k q)) (col_apply n _ p).symm

/-- The reference's second dense layer — scale by the doubly broadcast normalisation vector, add the broadcast bias, the
    rectifier, one `dot_general` with the transposed weight, add the broadcast bias — is `fcOut`. -/
theorem ref_fc_eq (A : FVec Ideal S50000x128 .f32) (n : FVec Ideal S50000 .f32)
    (b : FVec Ideal S128 .f32) (WT : FVec Ideal S128x512 .f32)
    (b' : FVec Ideal S512 .f32) :
    addf (F := Ideal) (Host.dotGeneral (F := Ideal) dot_S50000x128_S128x512_S50000x512_1_0_0_1_n_n none
        (maximumf (F := Ideal) (addf (F := Ideal) (mulf (F := Ideal) A (broadcastInDim S50000x128 ![0, 1] bcast_S50000x1_S50000x128_0_1 (broadcastInDim S50000x1 ![0] bcast_S50000_S50000x1_0 n)))
            (broadcastInDim S50000x128 ![0, 1] bcast_S1x128_S50000x128_0_1 (broadcastInDim S1x128 ![1] bcast_S128_S1x128_1 b)))
          (broadcastInDim S50000x128 ![] bcast_S_S50000x128 (constant (F := Ideal) S_ .f32 0x00000000#32))) WT)
      (broadcastInDim S50000x512 ![0, 1] bcast_S1x512_S50000x512_0_1 (broadcastInDim S1x512 ![1] bcast_S512_S1x512_1 b'))
      = fcOut A (colOf n) (row128Of b) WT (row512Of b') := by
  funext i
  obtain ⟨p, q, rfl⟩ : ∃ (p : Fin 50000) (q : Fin 512), i = ix2 p q := ⟨i 0, i 1, eq_ix2 i⟩
  rw [addf_apply, ref_fc_dot_apply, fcOut_apply A (colOf n) (row128Of b) WT (row512Of b') (ix2 p q) p q rfl rfl,
    bcast_row_apply b' bcast_S512_S1x512_1 bcast_S1x512_S50000x512_0_1 (by decide) p q]
  refine congrArg₂ (· + ·) (Finset.sum_congr rfl fun k _ => ?_) (row_apply b' _ q).symm
  rw [maximumf_apply, addf_apply, mulf_apply, bcast_col_apply n bcast_S50000_S50000x1_0 bcast_S50000x1_S50000x128_0_1 p k,
    bcast_row_apply b bcast_S128_S1x128_1 bcast_S1x128_S50000x128_0_1 (by decide) p k, bcast_zero_apply]
  exact congrArg₂ (fun y z => max (A (ix2 p k) * y + z) (Ideal.ofBits .f32 0x00000000#32) * WT (ix2 k q))
    (col_apply n _ p).symm (row_apply b _ k).symm

/-! ## The reference's result is the kernel program's -/

set_option maxHeartbeats 1000000 in
/-- The term the reference's run ends at, of any seven argument arrays, is `kernelOut` of them: the two dense layers
    by `ref_gcn_eq` and `ref_fc_eq`; the degree normalisation, the message passing and the transposition are the SAME
    host operations in both programs, applied here to equal operands. -/
theorem ref_result_eq (x0 : FVec Ideal S50000x512 .f32) (x1 x2 : IVec S1600000 32)
    (x3 : FVec Ideal S512x128 .f32) (x4 : FVec Ideal S128 .f32)
    (x5 : FVec Ideal S512x128 .f32) (x6 : FVec Ideal S512 .f32) :
    addf (F := Ideal) (Host.dotGeneral (F := Ideal) dot_S50000x128_S128x512_S50000x512_1_0_0_1_n_n none (maximumf (F := Ideal) (addf (F := Ideal) (mulf (F := Ideal) (Host.scatterAdd (F := Ideal) scatter_S50000x128_S1600000x1_S1600000x128_1_0_0_1 (broadcastInDim S50000x128 ![] bcast_S_S50000x128 (constant S_ .f32 0x00000000#32)) (broadcastInDim S1600000x1 ![0] bcast_S1600000_S1600000x1_0 x2) (Host.gather gather_S50000x128_S1600000x1_S1600000x128_1_0_n_n_0_1_1128 (Host.dotGeneral dot_S50000x512_S512x128_S50000x128_1_0_0_1_n_n none (mulf x0 (broadcastInDim S50000x512 ![0, 1] bcast_S50000x1_S50000x512_0_1 (broadcastInDim S50000x1 ![0] bcast_S50000_S50000x1_0 (select (cmpf (F := Ideal) .ogt (Host.scatterAdd scatter_S50000_S1600000x1_S1600000_n_0_0_1 (broadcastInDim S50000 ![] bcast_S_S50000 (constant S_ .f32 0x00000000#32)) (broadcastInDim S1600000x1 ![0] bcast_S1600000_S1600000x1_0 x1) (broadcastInDim S1600000 ![] bcast_S_S1600000 (constant S_ .f32 0x3F800000#32))) (broadcastInDim S50000 ![] bcast_S_S50000 (constant S_ .f32 0x00000000#32))) (Host.rsqrt (maximumf (Host.scatterAdd scatter_S50000_S1600000x1_S1600000_n_0_0_1 (broadcastInDim S50000 ![] bcast_S_S50000 (constant S_ .f32 0x00000000#32)) (broadcastInDim S1600000x1 ![0] bcast_S1600000_S1600000x1_0 x1) (broadcastInDim S1600000 ![] bcast_S_S1600000 (constant S_ .f32 0x3F800000#32))) (broadcastInDim S50000 ![] bcast_S_S50000 (constant S_ .f32 0x3F800000#32)))) (broadcastInDim S50000 ![] bcast_S_S50000 (id (constant S_ .f32 0x00000000#32))))))) x3) (broadcastInDim S1600000x1 ![0] bcast_S1600000_S1600000x1_0 (select (cmpi .slt x1 (broadcastInDim S1600000 ![] bcast_S_S1600000 (constantI S_ 32 0#32))) (addi x1 (broadcastInDim S1600000 ![] bcast_S_S1600000 (constantI S_ 32 50000#32))) x1)))) (broadcastInDim S50000x128 ![0, 1] bcast_S50000x1_S50000x128_0_1 (broadcastInDim S50000x1 ![0] bcast_S50000_S50000x1_0 (select (cmpf (F := Ideal) .ogt (Host.scatterAdd scatter_S50000_S1600000x1_S1600000_n_0_0_1 (broadcastInDim S50000 ![] bcast_S_S50000 (constant S_ .f32 0x00000000#32)) (broadcastInDim S1600000x1 ![0] bcast_S1600000_S1600000x1_0 x2) (broadcastInDim S1600000 ![] bcast_S_S1600000 (constant S_ .f32 0x3F800000#32))) (broadcastInDim S50000 ![] bcast_S_S50000 (constant S_ .f32 0x00000000#32))) (Host.rsqrt (maximumf (Host.scatterAdd scatter_S50000_S1600000x1_S1600000_n_0_0_1 (broadcastInDim S50000 ![] bcast_S_S50000 (constant S_ .f32 0x00000000#32)) (broadcastInDim S1600000x1 ![0] bcast_S1600000_S1600000x1_0 x2) (broadcastInDim S1600000 ![] bcast_S_S1600000 (constant S_ .f32 0x3F800000#32))) (broadcastInDim S50000 ![] bcast_S_S50000 (constant S_ .f32 0x3F800000#32)))) (broadcastInDim S50000 ![] bcast_S_S50000 (id (constant S_ .f32 0x00000000#32))))))) (broadcastInDim S50000x128 ![0, 1] bcast_S1x128_S50000x128_0_1 (broadcastInDim S1x128 ![1] bcast_S128_S1x128_1 x4))) (broadcastInDim S50000x128 ![] bcast_S_S50000x128 (constant S_ .f32 0x00000000#32))) (transpose S128x512 [1, 0] x5 transposes_S512x128_S128x512_1_0)) (broadcastInDim S50000x512 ![0, 1] bcast_S1x512_S50000x512_0_1 (broadcastInDim S1x512 ![1] bcast_S512_S1x512_1 x6))
      = kernelOut x0 x1 x2 x3 x4 x5 x6 := by
  unfold kernelOut
  rw [← ref_fc_eq, ← ref_gcn_eq]
  rfl

end Layers

end Cert.Bridge

end
-- ==== Proof.lean ====
/-
  A two-layer graph network on 50000 nodes and 1600000 edges: features scaled by the out-degree normalisation and
  multiplied by a [512,128] weight; messages gathered at the edges' sources and summed at their destinations; the sums
  scaled by the in-degree normalisation, biased and rectified; a [128,512] fully connected layer with its bias. The kernel
  program computes the two dense stages in two row-tiled regions (25 blocks of 2000 rows each, the products in bf16 operands
  with an f32 accumulator) and everything else on the host; the reference computes all of it on the host.

  At the ideal instance (floats are extended reals, operations exact, format changes the identity) the two programs end
  with the same array. The host stages — the degree counts, the normalisation factors, the gather and the scatter-add,
  the transposition — are the same operations in both programs, applied to equal operands. Each dense stage agrees because
  a row of its result depends only on the same row of the row-indexed operands and on the whole of the small ones, so the 25
  row blocks tile the one whole-array function; because a matrix product into a zero accumulator and a `dot_general` are the
  same finite sum over the contraction coordinates; and because a vector reshaped to a column (or a row) and the same vector
  broadcast along the other axis read the same entry. No law of the extended reals beyond `0 + x = x` is used, so the
  precondition (finite inputs) is never opened.

  The three frames are the generated ones (the reference's is its run with the result forgotten); the idealization rewrote
  nothing, so `preserves` is trivial.
-/
import proofs.«136862_j82446192214207_1_alg».proof.Defs
import proofs.«136862_j82446192214207_1_alg».proof.Proof.Gen.Kernel
import proofs.«136862_j82446192214207_1_alg».proof.Proof.Gen.Kernel.Skeleton
import proofs.«136862_j82446192214207_1_alg».proof.Proof.Gen.Kernel.Launch
import proofs.«136862_j82446192214207_1_alg».proof.Proof.Gen.Kernel.Points
import proofs.«136862_j82446192214207_1_alg».proof.Proof.Gen.Kernel.Frame
import proofs.«136862_j82446192214207_1_alg».proof.Proof.Gen.KernelIdeal
import proofs.«136862_j82446192214207_1_alg».proof.Proof.Gen.KernelIdeal.Skeleton
import proofs.«136862_j82446192214207_1_alg».proof.Proof.Gen.KernelIdeal.Launch
import proofs.«136862_j82446192214207_1_alg».proof.Proof.Gen.KernelIdeal.Points
import proofs.«136862_j82446192214207_1_alg».proof.Proof.Gen.KernelIdeal.Frame
import proofs.«136862_j82446192214207_1_alg».proof.Proof.Gen.ReferenceIdeal
import proofs.«136862_j82446192214207_1_alg».proof.Proof.Gen.Pre_finite_inputs
import proofs.«136862_j82446192214207_1_alg».proof.Proof.RefRunPatched
import proofs.«136862_j82446192214207_1_alg».proof.Proof.KernelRun
import proofs.«136862_j82446192214207_1_alg».proof.Proof.HostReads
import proofs.«136862_j82446192214207_1_alg».proof.Proof.RefLayers
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernel_ideal : Cert.frame_KernelIdeal := fun m ρ _ => Cert.KernelIdeal.Gen.frame m ρ
/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- The idealized kernel program's run, read: the result array ends at `kernelOut` of the argument arrays, which end
    unchanged. -/
theorem kernel_value (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v35)
          = Cert.KernelIdeal.Bridge.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  (θ_run (Cert.KernelIdeal.defs (F := Ideal)) _ _).mono (fun _ h c => ⟨(h c).1.trans (Cert.KernelIdeal.Bridge.W8_v35 m ρ c), (h c).2⟩)
    (Cert.KernelIdeal.Bridge.run_result (F := Ideal) m ρ)

/-- From memories agreeing on the arguments both programs end at `kernelOut` of them: the kernel program by its regions'
    values and its host stretches, the reference by its run's term, which is that function (`ref_result_eq`). -/
theorem algebraic : Cert.algebraic_KernelIdeal_ReferenceIdeal := by
  intro m ρ m' ρ' _ hagree
  refine ⟨fun c => Cert.KernelIdeal.Bridge.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), kernel_value m ρ, ?_⟩
  refine (θ_run (Cert.ReferenceIdeal.defs (F := Ideal)) _ _).mono (fun _ h c => ⟨(h c).1.trans ?_, (h c).2⟩)
    (Cert.ReferenceIdeal.ValueP.run (F := Ideal) m' ρ')
  obtain ⟨e0, e1, e2, e3, e4, e5, e6⟩ := hagree c
  rw [e0, e1, e2, e3, e4, e5, e6]
  exact Cert.Bridge.ref_result_eq _ _ _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
